-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S640000 : Shape := ⟨1, ![640000]⟩
abbrev S_ : Shape := ⟨0, ![]⟩
abbrev S1x640000 : Shape := ⟨2, ![1, 640000]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000 : S_.BroadcastsInDim S640000 (![] : Fin 0 → Fin S640000.rank)
  reducesTo_S640000_S_d0 : S640000.ReducesTo [0] S_
  slices_S2x640000_S1x640000_0_0 : S2x640000.Slices ![0, 0] S1x640000
  shapeCasts_S1x640000_S640000 : S1x640000.ShapeCasts S640000

variable [Facts]

def fn_part1 {F : FTy → Type} [FloatOps F] (main_v8 : IVec S_ 1) (main_v17 : IVec S640000 1) : IVec S_ 1 :=
  let main_c_4 : IVec S_ 1 := constantI S_ 1 1#1
  let main_v18 : IVec S_ 1 := (fun x v => Host.reduce IntOp.andi x v reducesTo_S640000_S_d0 h_S_) main_v17 main_c_4
  let main_v19 : IVec S_ 1 := andi main_v8 main_v18
  main_v19

def fn {F : FTy → Type} [FloatOps F] (main_arg0 : FVec F S10000x128 .f32) (main_arg1 : IVec S2x640000 32) (main_arg2 : FVec F S640000 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : IVec S1x640000 32 := (extractStridedSlice S1x640000 ![0, 0] · slices_S2x640000_S1x640000_0_0) main_arg1
  let main_v10 : IVec S640000 32 := shapeCast S640000 main_v9 shapeCasts_S1x640000_S640000
  let main_c_2 : IVec S_ 32 := constantI S_ 32 0#32
  let main_v11 : IVec S640000 32 := broadcastInDim S640000 ![] bcast_S_S640000 main_c_2
  let main_v12 : IVec S640000 1 := cmpi .sge main_v10 main_v11
  let main_v13 : IVec S1x640000 32 := (extractStridedSlice S1x640000 ![0, 0] · slices_S2x640000_S1x640000_0_0) main_arg1
  let main_v14 : IVec S640000 32 := shapeCast S640000 main_v13 shapeCasts_S1x640000_S640000
  let main_c_3 : IVec S_ 32 := constantI S_ 32 10000#32
  let main_v15 : IVec S640000 32 := broadcastInDim S640000 ![] bcast_S_S640000 main_c_3
  let main_v16 : IVec S640000 1 := cmpi .slt main_v14 main_v15
  let main_v17 : IVec S640000 1 := andi main_v12 main_v16
  fn_part1 (F := F) main_v8 main_v17
-- ==== Kernel.lean ====
abbrev S10000x128 : Shape := ⟨2, ![10000, 128]⟩
abbrev S2x640000 : Shape := ⟨2, ![2, 640000]⟩
abbrev S640000 : Shape := ⟨1, ![640000]⟩
abbrev S1x640000 : Shape := ⟨2, ![1, 640000]⟩
abbrev S_ : Shape := ⟨0, ![]⟩
abbrev S10000 : Shape := ⟨1, ![10000]⟩
abbrev S640000x1 : Shape := ⟨2, ![640000, 1]⟩
abbrev S1024 : Shape := ⟨1, ![1024]⟩
abbrev S641024 : Shape := ⟨1, ![641024]⟩
abbrev S10240x128 : Shape := ⟨2, ![10240, 128]⟩
abbrev S1 : Shape := ⟨1, ![1]⟩
abbrev S2x10240x128 : Shape := ⟨3, ![2, 10240, 128]⟩
abbrev S1x10240x128 : Shape := ⟨3, ![1, 10240, 128]⟩
abbrev S1024x128 : Shape := ⟨2, ![1024, 128]⟩
abbrev S1024x1024 : Shape := ⟨2, ![1024, 1024]⟩
abbrev S1024x1 : Shape := ⟨2, ![1024, 1]⟩
abbrev S1x1024 : Shape := ⟨2, ![1, 1024]⟩
abbrev S1x1024x128 : Shape := ⟨3, ![1, 1024, 128]⟩

abbrev nBuf : Space → Nat
  | .hbm => 53
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S640000, .f32⟩
  | .hbm, ⟨3, _⟩ => ⟨S1x640000, .i32⟩
  | .hbm, ⟨4, _⟩ => ⟨S640000, .i32⟩
  | .hbm, ⟨5, _⟩ => ⟨S1x640000, .i32⟩
  | .hbm, ⟨6, _⟩ => ⟨S640000, .i32⟩
  | .hbm, ⟨7, _⟩ => ⟨S_, .f32⟩
  | .hbm, ⟨8, _⟩ => ⟨S10000, .f32⟩
  | .hbm, ⟨9, _⟩ => ⟨S640000x1, .i32⟩
  | .hbm, ⟨10, _⟩ => ⟨S10000, .f32⟩
  | .hbm, ⟨11, _⟩ => ⟨S_, .f32⟩
  | .hbm, ⟨12, _⟩ => ⟨S10000, .f32⟩
  | .hbm, ⟨13, _⟩ => ⟨S10000, .f32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000, .f32⟩
  | .hbm, ⟨23, _⟩ => ⟨S640000, .f32⟩
  | .hbm, ⟨24, _⟩ => ⟨S_, .i32⟩
  | .hbm, ⟨25, _⟩ => ⟨S1024, .i32⟩
  | .hbm, ⟨26, _⟩ => ⟨S641024, .i32⟩
  | .hbm, ⟨27, _⟩ => ⟨S_, .i32⟩
  | .hbm, ⟨28, _⟩ => ⟨S1024, .i32⟩
  | .hbm, ⟨29, _⟩ => ⟨S641024, .i32⟩
  | .hbm, ⟨30, _⟩ => ⟨S_, .f32⟩
  | .hbm, ⟨31, _⟩ => ⟨S1024, .f32⟩
  | .hbm, ⟨32, _⟩ => ⟨S641024, .f32⟩
  | .hbm, ⟨33, _⟩ => ⟨S_, .f32⟩
  | .hbm, ⟨34, _⟩ => ⟨S10240x128, .f32⟩
  | .hbm, ⟨35, _⟩ => ⟨S_, .i32⟩
  | .hbm, ⟨36, _⟩ => ⟨S1, .i32⟩
  | .hbm, ⟨37, _⟩ => ⟨S10240x128, .f32⟩
  | .hbm, ⟨38, _⟩ => ⟨S10240x128, .bf16⟩
  | .hbm, ⟨39, _⟩ => ⟨S2x10240x128, .f32⟩
  | .hbm, ⟨40, _⟩ => ⟨S1x10240x128, .f32⟩
  | .hbm, ⟨41, _⟩ => ⟨S10240x128, .f32⟩
  | .hbm, ⟨42, _⟩ => ⟨S1x10240x128, .f32⟩
  | .hbm, ⟨43, _⟩ => ⟨S10240x128, .f32⟩
  | .hbm, ⟨44, _⟩ => ⟨S10240x128, .f32⟩
  | .hbm, ⟨45, _⟩ => ⟨S10000x128, .f32⟩
  | .hbm, ⟨46, _⟩ => ⟨S_, .f32⟩
  | .hbm, ⟨47, _⟩ => ⟨S10000x128, .f32⟩
  | .hbm, ⟨48, _⟩ => ⟨S10000x128, .f32⟩
  | .hbm, ⟨49, _⟩ => ⟨S_, .f32⟩
  | .hbm, ⟨50, _⟩ => ⟨S10000x128, .f32⟩
  | .hbm, ⟨51, _⟩ => ⟨S10000x128, .f32⟩
  | .hbm, ⟨52, _⟩ => ⟨S10000x128, .f32⟩
  | .local _ .vmem, ⟨0, _⟩ => ⟨S1024, .i32⟩
  | .local _ .vmem, ⟨1, _⟩ => ⟨S1024, .i32⟩
  | .local _ .vmem, ⟨2, _⟩ => ⟨S1024, .i32⟩
  | .local _ .vmem, ⟨3, _⟩ => ⟨S1024, .i32⟩
  | .local _ .vmem, ⟨4, _⟩ => ⟨S1024, .f32⟩
  | .local _ .vmem, ⟨5, _⟩ => ⟨S1024, .f32⟩
  | .local _ .vmem, ⟨6, _⟩ => ⟨S10240x128, .bf16⟩
  | .local _ .vmem, ⟨7, _⟩ => ⟨S1x10240x128, .f32⟩
  | .local _ .vmem, ⟨8, _⟩ => ⟨S1x10240x128, .f32⟩
  | .local _ .vmem, ⟨9, _⟩ => ⟨S1024x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 313], ![false, false]⟩

@[reducible] def k0_t1_loop : Scf.Loop 32 :=
  let c0_i32_5 : BitVec 32 := 0#32
  let c10_i32 : BitVec 32 := 10#32
  let v13 : BitVec 32 := Scalar.addi c0_i32_5 c10_i32
  let c1_i32 : BitVec 32 := 1#32
  ⟨c0_i32_5, v13, c1_i32⟩
def k0_mult1 (k0_t1 : Fin k0_t1_loop.trips) : BitVec 32 :=
  let c0_i32_14 : BitVec 32 := 0#32
  let c0_i32_5 : BitVec 32 := 0#32
  let c1_i32 : BitVec 32 := 1#32
  let arg8 : BitVec 32 := Scf.iv c0_i32_5 c1_i32 k0_t1
  let c1_i32_13 : BitVec 32 := 1#32
  let v20 : BitVec 32 := Scalar.muli arg8 c1_i32_13
  let v21 : BitVec 32 := Scalar.addi c0_i32_14 v20
  let c1024_i32 : BitVec 32 := 1024#32
  let v22 : BitVec 32 := Scalar.muli v21 c1024_i32
  v22
def k0_off1 (k0_t1 : Fin k0_t1_loop.trips) : Fin 2 → Nat :=
  let c0_i32_14 : BitVec 32 := 0#32
  let c0_i32_5 : BitVec 32 := 0#32
  let c1_i32 : BitVec 32 := 1#32
  let arg8 : BitVec 32 := Scf.iv c0_i32_5 c1_i32 k0_t1
  let c1_i32_13 : BitVec 32 := 1#32
  let v20 : BitVec 32 := Scalar.muli arg8 c1_i32_13
  let v21 : BitVec 32 := Scalar.addi c0_i32_14 v20
  let c1024_i32 : BitVec 32 := 1024#32
  let v22 : BitVec 32 := Scalar.muli v21 c1024_i32
  let v23 : BitVec 32 := v22
  let v24 : Index := Scalar.indexCast v23
  let c0_15 : Index := 0#32
  ![v24.toNat, 0]
@[reducible] def k0_t2_loop : Scf.Loop 32 :=
  let c0_i32_9 : BitVec 32 := 0#32
  let c10_i32_10 : BitVec 32 := 10#32
  let v19 : BitVec 32 := Scalar.addi c0_i32_9 c10_i32_10
  let c1_i32_11 : BitVec 32 := 1#32
  ⟨c0_i32_9, v19, c1_i32_11⟩
def k0_mult2 (k0_t2 : Fin k0_t2_loop.trips) : BitVec 32 :=
  let c0_i32_14 : BitVec 32 := 0#32
  let c0_i32_9 : BitVec 32 := 0#32
  let c1_i32_11 : BitVec 32 := 1#32
  let arg8 : BitVec 32 := Scf.iv c0_i32_9 c1_i32_11 k0_t2
  let c1_i32_13 : BitVec 32 := 1#32
  let v20 : BitVec 32 := Scalar.muli arg8 c1_i32_13
  let v21 : BitVec 32 := Scalar.addi c0_i32_14 v20
  let c1024_i32 : BitVec 32 := 1024#32
  let v22 : BitVec 32 := Scalar.muli v21 c1024_i32
  v22
def k0_off2 (k0_t2 : Fin k0_t2_loop.trips) : Fin 3 → Nat :=
  let c0_16 : Index := 0#32
  let c0_i32_14 : BitVec 32 := 0#32
  let c0_i32_9 : BitVec 32 := 0#32
  let c1_i32_11 : BitVec 32 := 1#32
  let arg8 : BitVec 32 := Scf.iv c0_i32_9 c1_i32_11 k0_t2
  let c1_i32_13 : BitVec 32 := 1#32
  let v20 : BitVec 32 := Scalar.muli arg8 c1_i32_13
  let v21 : BitVec 32 := Scalar.addi c0_i32_14 v20
  let c1024_i32 : BitVec 32 := 1024#32
  let v22 : BitVec 32 := Scalar.muli v21 c1024_i32
  let v23 : BitVec 32 := v22
  let v34 : Index := Scalar.indexCast v23
  let c0_17 : Index := 0#32
  ![0, v34.toNat, 0]
def cc0_transform_0 (i : grid0.Coords) : Fin 1 → Nat :=
  let arg0 : BitVec 32 := BitVec.ofNat 32 (i 0).val
  let arg1 : BitVec 32 := BitVec.ofNat 32 (i 1).val
  let c313_i32 : BitVec 32 := 313#32
  let v0 : BitVec 32 := Scalar.muli arg0 c313_i32
  let v1 : BitVec 32 := Scalar.addi v0 arg1
  let c0_i32 : BitVec 32 := 0#32
  ![v1.toNat]

def cc0_transform_1 (i : grid0.Coords) : Fin 1 → Nat :=
  let arg0 : BitVec 32 := BitVec.ofNat 32 (i 0).val
  let arg1 : BitVec 32 := BitVec.ofNat 32 (i 1).val
  let c313_i32 : BitVec 32 := 313#32
  let v0 : BitVec 32 := Scalar.muli arg0 c313_i32
  let v1 : BitVec 32 := Scalar.addi v0 arg1
  let c0_i32 : BitVec 32 := 0#32
  ![v1.toNat]

def cc0_transform_2 (i : grid0.Coords) : Fin 1 → Nat :=
  let arg0 : BitVec 32 := BitVec.ofNat 32 (i 0).val
  let arg1 : BitVec 32 := BitVec.ofNat 32 (i 1).val
  let c313_i32 : BitVec 32 := 313#32
  let v0 : BitVec 32 := Scalar.muli arg0 c313_i32
  let v1 : BitVec 32 := Scalar.addi v0 arg1
  let c0_i32 : BitVec 32 := 0#32
  ![v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S10240x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x10240x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S10000 : S_.BroadcastsInDim S10000 (![] : Fin 0 → Fin S10000.rank)
  bcast_S640000_S640000x1_0 : S640000.BroadcastsInDim S640000x1 (![0] : Fin 1 → Fin S640000x1.rank)
  bcast_S_S640000 : S_.BroadcastsInDim S640000 (![] : Fin 0 → Fin S640000.rank)
  bcast_S_S1024 : S_.BroadcastsInDim S1024 (![] : Fin 0 → Fin S1024.rank)
  concatenates_S640000_S1024_S641024_d0 : Shape.Concatenates [S640000, S1024] S641024 0
  bcast_S_S10240x128 : S_.BroadcastsInDim S10240x128 (![] : Fin 0 → Fin S10240x128.rank)
  bcast_S_S1 : S_.BroadcastsInDim S1 (![] : Fin 0 → Fin S1.rank)
  bitsLt_bf16_f32 : FTy.bits .bf16 < FTy.bits .f32
  inb_S1x10240x128_S1x10240x128_0_0_0 : ∀ a, (![0, 0, 0] : Fin 3 → Nat) a + S1x10240x128.size a ≤ S1x10240x128.size a
  h_S1x10240x128 : 0 < S1x10240x128.numel
  shapeCasts_S1x10240x128_S10240x128 : S1x10240x128.ShapeCasts S10240x128
  shapeCasts_S10240x128_S1x10240x128 : S10240x128.ShapeCasts S1x10240x128
  inb_S1024_S1024_0 : ∀ a, (![0] : Fin 1 → Nat) a + S1024.size a ≤ S1024.size a
  h_S1024 : 0 < S1024.numel
  shapeCasts_S1024_S1024 : S1024.ShapeCasts S1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  iota_S1024x1024_d1_w32 : S1024x1024.Iotas .tc 32 [1]
  shapeCasts_S1024_S1024x1 : S1024.ShapeCasts S1024x1
  broadcasts_S1024x1_S1024x1024 : S1024x1.Broadcasts S1024x1024
  natLt_1_32 : 1 < 32
  broadcasts_S1024x1_S1024x128 : S1024x1.Broadcasts S1024x128
  iota_S1024x1024_d0_w32 : S1024x1024.Iotas .tc 32 [0]
  shapeCasts_S1024_S1x1024 : S1024.ShapeCasts S1x1024
  broadcasts_S1x1024_S1024x1024 : S1x1024.Broadcasts S1024x1024
  h_S1x1024x128 : 0 < S1x1024x128.numel
  shapeCasts_S1x1024x128_S1024x128 : S1x1024x128.ShapeCasts S1024x128
  shapeCasts_S1024x128_S1x1024x128 : S1024x128.ShapeCasts S1x1024x128
  slices_S2x10240x128_S1x10240x128_0_0_0 : S2x10240x128.Slices ![0, 0, 0] S1x10240x128
  slices_S2x10240x128_S1x10240x128_1_0_0 : S2x10240x128.Slices ![1, 0, 0] S1x10240x128
  slices_S10240x128_S10000x128_0_0 : S10240x128.Slices ![0, 0] S10000x128
  bcast_S_S10000x128 : S_.BroadcastsInDim S10000x128 (![] : Fin 0 → Fin S10000x128.rank)
  scatter_S10000_S640000x1_S640000_n_0_0_1_wf : ScatterDims.WF S10000 S640000x1 S640000 [] [0] [0] 1
  gather_S10000_S640000x1_S640000_n_0_n_n_0_1_1_wf : GatherDims.WF S10000 S640000x1 S640000 [] [0] [] [0] [] 1 ![1]
  scatter_S10240x128_S1_S10000x128_01_n_0_0_wf : ScatterDims.WF S10240x128 S1 S10000x128 [0, 1] [] [0] 0
  dot_S1024x1024_S1024x128_S1024x128_1_0_0_1_n_n_wf : DotDims.WF S1024x1024 S1024x128 S1024x128 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x128.size a ≤ S10240x128.size a
  k0_t2_ok : k0_t2_loop.OK
  k0_mult2_dvd : ∀ k0_t2 : Fin k0_t2_loop.trips, 1024 ∣ (k0_mult2 k0_t2).toNat
  k0_off2_inb : ∀ k0_t2 : Fin k0_t2_loop.trips, ∀ a, (k0_off2 k0_t2) a + S1x1024x128.size a ≤ S1x10240x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024.size a ≤ S641024.size a
  hwx0_0 : ∀ i : grid0.Coords, EltTy.bits .i32 = 32 ∨ (Rect.block (s := S641024) S1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S641024.size a
  hwx0_1 : ∀ i : grid0.Coords, EltTy.bits .i32 = 32 ∨ (Rect.block (s := S641024) S1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S641024.size a
  hwx0_2 : ∀ i : grid0.Coords, EltTy.bits .f32 = 32 ∨ (Rect.block (s := S641024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10240x128.size a ≤ S10240x128.size a
  hwx0_3 : ∀ i : grid0.Coords, EltTy.bits .bf16 = 32 ∨ (Rect.block (s := S10240x128) S10240x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x10240x128.size a ≤ S2x10240x128.size a
  hwx0_4 : ∀ i : grid0.Coords, EltTy.bits .f32 = 32 ∨ (Rect.block (s := S2x10240x128) S1x10240x128.size (cc0_transform_4 i) (hinb0_4 i)).WholeWords (EltTy.packing .f32)

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def scatter_S10240x128_S1_S10000x128_01_n_0_0 : ScatterDims S10240x128 S1 S10000x128 where
  updateWindowDims := [0, 1]
  insertedWindowDims := []
  scatterDimsToOperandDims := [0]
  indexVectorDim := 0
  wf := scatter_S10240x128_S1_S10000x128_01_n_0_0_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v18) S1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S10240x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x10240x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S640000 : Shape := ⟨1, ![640000]⟩
abbrev S1x640000 : Shape := ⟨2, ![1, 640000]⟩
abbrev S_ : Shape := ⟨0, ![]⟩
abbrev S10000 : Shape := ⟨1, ![10000]⟩
abbrev S640000x1 : Shape := ⟨2, ![640000, 1]⟩
abbrev S640000x128 : Shape := ⟨2, ![640000, 128]⟩

abbrev nBuf : Space → Nat
  | .hbm => 47
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S640000, .f32⟩
  | .hbm, ⟨3, _⟩ => ⟨S1x640000, .i32⟩
  | .hbm, ⟨4, _⟩ => ⟨S640000, .i32⟩
  | .hbm, ⟨5, _⟩ => ⟨S1x640000, .i32⟩
  | .hbm, ⟨6, _⟩ => ⟨S640000, .i32⟩
  | .hbm, ⟨7, _⟩ => ⟨S_, .f32⟩
  | .hbm, ⟨8, _⟩ => ⟨S10000, .f32⟩
  | .hbm, ⟨9, _⟩ => ⟨S640000x1, .i32⟩
  | .hbm, ⟨10, _⟩ => ⟨S10000, .f32⟩
  | .hbm, ⟨11, _⟩ => ⟨S_, .f32⟩
  | .hbm, ⟨12, _⟩ => ⟨S10000, .f32⟩
  | .hbm, ⟨13, _⟩ => ⟨S10000, .f32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000, .f32⟩
  | .hbm, ⟨23, _⟩ => ⟨S640000, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S640000x1, .f32⟩
  | .hbm, ⟨34, _⟩ => ⟨S640000x128, .f32⟩
  | .hbm, ⟨35, _⟩ => ⟨S640000x128, .f32⟩
  | .hbm, ⟨36, _⟩ => ⟨S_, .f32⟩
  | .hbm, ⟨37, _⟩ => ⟨S10000x128, .f32⟩
  | .hbm, ⟨38, _⟩ => ⟨S640000x1, .i32⟩
  | .hbm, ⟨39, _⟩ => ⟨S10000x128, .f32⟩
  | .hbm, ⟨40, _⟩ => ⟨S_, .f32⟩
  | .hbm, ⟨41, _⟩ => ⟨S10000x128, .f32⟩
  | .hbm, ⟨42, _⟩ => ⟨S10000x128, .f32⟩
  | .hbm, ⟨43, _⟩ => ⟨S_, .f32⟩
  | .hbm, ⟨44, _⟩ => ⟨S10000x128, .f32⟩
  | .hbm, ⟨45, _⟩ => ⟨S10000x128, .f32⟩
  | .hbm, ⟨46, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S10000 : S_.BroadcastsInDim S10000 (![] : Fin 0 → Fin S10000.rank)
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  scatter_S10000_S640000x1_S640000_n_0_0_1_wf : ScatterDims.WF S10000 S640000x1 S640000 [] [0] [0] 1
  gather_S10000_S640000x1_S640000_n_0_n_n_0_1_1_wf : GatherDims.WF S10000 S640000x1 S640000 [] [0] [] [0] [] 1 ![1]
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf

class Facts : Prop extends Facts₀ where

variable [Facts]
-- ==== Proof.Spec.lean ====
/-
  One step of weighted neighbourhood averaging on a directed graph, as a function of its inputs.

  The graph has 10000 nodes carrying 128 features each (`x`), and 640000 edges given by two rows of
  32-bit words (`ei`): row 0 the source node of each edge, row 1 its destination. Each edge carries a
  weight `en e` (already normalised by the caller). Node `n` receives, from every edge whose destination
  word is `n`, the features of that edge's source node times the edge's weight; the result mixes this sum
  with the node's own features:

      result (n, d) = a · (∑ over edges e with dst e = n, x (src e, d) · en e) + b · x (n, d).

  The sum is written over ALL edges with a test on the destination word, so that no order or grouping of the
  edges is part of the statement. A source word is read as a node by `srcNode`, which is total (it clamps);
  the statement is used where every source word already names a node.
-/
import Idealize.ShloMosaic.PureOps.Ideal
import Idealize.ShloMosaic.Lib.ValueIdx

noncomputable section

namespace Cert.Propagate

open Idealize.ShloMosaic Idealize.ShloMosaic.ValueIdx

/-- Node features: 10000 nodes by 128 features. -/
abbrev SNodes : Shape := ⟨2, ![10000, 128]⟩
/-- The edge list: two rows (source, destination) of 640000 words. -/
abbrev SEdgeIx : Shape := ⟨2, ![2, 640000]⟩

/-- The source word of edge `e`. -/
def src (ei : SEdgeIx.Idx → BitVec 32) (e : Fin 640000) : BitVec 32 := ei (ix2 (0 : Fin 2) e)

/-- The destination word of edge `e`. -/
def dst (ei : SEdgeIx.Idx → BitVec 32) (e : Fin 640000) : BitVec 32 := ei (ix2 (1 : Fin 2) e)

/-- The node a source word names, clamped into the node range so that it is total. -/
def srcNode (ei : SEdgeIx.Idx → BitVec 32) (e : Fin 640000) : Fin 10000 :=
  ⟨min (src ei e).toNat 9999, by omega⟩

/-- What edge `e` sends to node `n` in feature `d`: its source's feature times its weight if its destination
    word is `n`, nothing otherwise. -/
def message (x : SNodes.Idx → EReal) (ei : SEdgeIx.Idx → BitVec 32) (en : Fin 640000 → EReal)
    (n : Fin 10000) (d : Fin 128) (e : Fin 640000) : EReal :=
  if dst ei e = BitVec.ofNat 32 n.val then x (ix2 (srcNode ei e) d) * en e else 0

/-- Everything node `n` receives in feature `d`. -/
def received (x : SNodes.Idx → EReal) (ei : SEdgeIx.Idx → BitVec 32) (en : Fin 640000 → EReal)
    (n : Fin 10000) (d : Fin 128) : EReal :=
  ∑ e : Fin 640000, message x ei en n d e

/-- The propagation step: `a` times what a node receives plus `b` times what it had. -/
def result (a b : EReal) (x : SNodes.Idx → EReal) (ei : SEdgeIx.Idx → BitVec 32) (en : Fin 640000 → EReal) :
    SNodes.Idx → EReal :=
  fun j => a * received x ei en (j 0) (j 1) + b * x j

theorem result_apply (a b : EReal) (x : SNodes.Idx → EReal) (ei : SEdgeIx.Idx → BitVec 32) (en : Fin 640000 → EReal)
    (n : Fin 10000) (d : Fin 128) :
    result a b x ei en (ix2 n d) = a * received x ei en n d + b * x (ix2 n d) := rfl

end Cert.Propagate

end
-- ==== Proof.HostSide.lean ====
/-
  The host's part of the program, around the kernel.

  Before the kernel runs the host prepares four arrays from the inputs: the source words and the destination words of
  the edges, each followed by 1024 zero words; the normalised edge weights followed by 1024 zeros; and the node
  features followed by 240 rows of zeros. After it, the host adds the two cores' partial sums, drops the padding rows,
  and mixes the sum with the node's own features. Here each of these arrays is read at an index as a function of the
  inputs (the normalised weights are kept as the operations' composed term, not opened).
-/
import proofs.«114975_j16947940950524_2_alg».proof.Proof.Gen.KernelIdeal.Frame
import proofs.«114975_j16947940950524_2_alg».proof.Proof.Spec
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.HostSide

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

/-! ## Pure reads: the layout operations around the kernel, at an index -/

/-- Row `k` of the edge list, sliced out and flattened, read at edge `e`. -/
theorem edgeRow_at (ei : IVec S2x640000 32) (k : Fin 2) (off : Fin 2 → Nat) (hoff0 : off 0 = k.val) (hoff1 : off 1 = 0)
    (hs : S2x640000.Slices off S1x640000) (hc : S1x640000.ShapeCasts S640000) (e : Fin 640000) :
    shapeCast S640000 (extractStridedSlice S1x640000 off ei hs) hc (ix1 e) = ei (ix2 k e) := by
  rw [shapeCast_apply _ hc (ix1 e) (ix2 (0 : Fin 1) e)
    (by rw [Shape.rowMajor_val_two, Shape.rowMajor_val_one]; show 0 * 640000 + e.val = e.val; omega)]
  exact extractStridedSlice_apply off ei hs (ix2 (0 : Fin 1) e) (ix2 k e)
    (fun a => match a with
      | ⟨0, _⟩ => by show k.val = off 0 + 0; omega
      | ⟨1, _⟩ => by show e.val = off 1 + e.val; omega)

/-- A flat array of 640000 entries followed by 1024 more, read at position `E`. -/
theorem concat_at {α : Type} (a : S640000.Idx → α) (b : S1024.Idx → α)
    (h : Shape.Concatenates [S640000, S1024] S641024 0) (E : Fin 641024) :
    concatenate S641024 0 [⟨S640000, a⟩, ⟨S1024, b⟩] h (ix1 E)
      = if h : E.val < 640000 then a (ix1 ⟨E.val, h⟩) else b (ix1 ⟨E.val - 640000, by have := E.isLt; omega⟩) := by
  by_cases hE : E.val < 640000
  · rw [dif_pos hE]
    exact concatenate_pair_apply_left (0 : Fin 1) a b h (ix1 E) rfl (ix1 ⟨E.val, hE⟩)
      (fun b => match b with | ⟨0, _⟩ => rfl)
  · rw [dif_neg hE]
    exact concatenate_pair_apply_right (0 : Fin 1) a b h (ix1 E) rfl rfl (ix1 ⟨E.val - 640000, by have := E.isLt; omega⟩)
      (fun b hb => match b, hb with | ⟨0, _⟩, hb => absurd rfl hb)
      (by show E.val - 640000 + 640000 = E.val; omega)

/-! ## The arrays the kernel is launched on, as terms of the inputs -/

set_option maxHeartbeats 2000000 in
theorem rows_term : (V m c main_v18 : IVec S641024 32)
    = concatenate S641024 0 [⟨S640000, shapeCast S640000 (extractStridedSlice S1x640000 ![0, 0]
          (m ((c : Thread nD τ).loc main_arg1)) Gen.slices_S2x640000_S1x640000_0_0) Gen.shapeCasts_S1x640000_S640000⟩,
        ⟨S1024, broadcastInDim S1024 ![] Gen.bcast_S_S1024 (constantI S_ 32 0#32)⟩] Gen.concatenates_S640000_S1024_S641024_d0 := by
  dsimp only [V, V0]
  simp only [List.flatten_cons, List.flatten_nil, List.append_nil]
  after_results_simp <;> rfl

set_option maxHeartbeats 2000000 in
theorem cols_term : (V m c main_v20 : IVec S641024 32)
    = concatenate S641024 0 [⟨S640000, shapeCast S640000 (extractStridedSlice S1x640000 ![1, 0]
          (m ((c : Thread nD τ).loc main_arg1)) Gen.slices_S2x640000_S1x640000_1_0) Gen.shapeCasts_S1x640000_S640000⟩,
        ⟨S1024, broadcastInDim S1024 ![] Gen.bcast_S_S1024 (constantI S_ 32 0#32)⟩] Gen.concatenates_S640000_S1024_S641024_d0 := by
  dsimp only [V, V0]
  simp only [List.flatten_cons, List.flatten_nil, List.append_nil]
  after_results_simp <;> rfl

set_option maxHeartbeats 2000000 in
theorem norms_term : (V m c main_v22 : FVec Idealize.ShloMosaic.Ideal S641024 .f32)
    = concatenate S641024 0 [⟨S640000, (V m c main_v16 : FVec Idealize.ShloMosaic.Ideal S640000 .f32)⟩,
        ⟨S1024, broadcastInDim S1024 ![] Gen.bcast_S_S1024 (constant (F := Idealize.ShloMosaic.Ideal) S_ .f32 0x00000000#32)⟩]
        Gen.concatenates_S640000_S1024_S641024_d0 := by
  dsimp only [V, V0]
  simp only [List.flatten_cons, List.flatten_nil, List.append_nil]
  after_results_simp <;> rfl

/-! ## The same arrays read at an index -/

/-- The kernel's source words: the edge list's row 0, then 1024 zero words. -/
theorem rows_at (E : Fin 641024) :
    (V m c main_v18 : IVec S641024 32) (ix1 E)
      = if h : E.val < 640000 then Cert.Propagate.src (m ((c : Thread nD τ).loc main_arg1)) ⟨E.val, h⟩ else 0#32 := by
  rw [rows_term, concat_at]
  by_cases hE : E.val < 640000
  · rw [dif_pos hE, dif_pos hE]
    exact edgeRow_at _ 0 ![0, 0] rfl rfl _ _ _
  · rw [dif_neg hE, dif_neg hE]; rfl

/-- The kernel's destination words: the edge list's row 1, then 1024 zero words. -/
theorem cols_at (E : Fin 641024) :
    (V m c main_v20 : IVec S641024 32) (ix1 E)
      = if h : E.val < 640000 then Cert.Propagate.dst (m ((c : Thread nD τ).loc main_arg1)) ⟨E.val, h⟩ else 0#32 := by
  rw [cols_term, concat_at]
  by_cases hE : E.val < 640000
  · rw [dif_pos hE, dif_pos hE]
    exact edgeRow_at _ 1 ![1, 0] rfl rfl _ _ _
  · rw [dif_neg hE, dif_neg hE]; rfl

/-- The kernel's edge weights: the normalised weights, then 1024 zeros. -/
theorem norms_at (E : Fin 641024) :
    (V m c main_v22 : FVec Idealize.ShloMosaic.Ideal S641024 .f32) (ix1 E)
      = if h : E.val < 640000 then (V m c main_v16 : FVec Idealize.ShloMosaic.Ideal S640000 .f32) (ix1 ⟨E.val, h⟩) else (0 : EReal) := by
  rw [norms_term, concat_at]
  by_cases hE : E.val < 640000
  · rw [dif_pos hE, dif_pos hE]
  · rw [dif_neg hE, dif_neg hE]
    exact Ideal.ofBits_zero_f32

/-! ## A scatter that sets each update at a place of its own

`Host.scatter` folds over the update positions in row-major order; when its body returns the update, each step
overwrites one place. If update `j` lands at `g j` and `g` is injective, no place is written twice: the result holds
update `j` at `g j` and the operand everywhere else. -/

section SetFold
variable {I N α : Type} [DecidableEq I]

/-- A place no listed update lands at keeps its value through the fold. -/
theorem foldl_set_miss (p : N → I) (v : N → α) (i' : I) :
    ∀ (l : List N) (r : I → α), (∀ n ∈ l, p n ≠ i') →
      (l.foldl (fun r n => fun i => if i = p n then v n else r i) r) i' = r i'
  | [], r, _ => rfl
  | a :: l, r, h => by
    rw [List.foldl_cons, foldl_set_miss p v i' l _ (fun n hn => h n (List.mem_cons_of_mem _ hn))]
    exact if_neg (fun e => h a List.mem_cons_self e.symm)

/-- The place a listed update lands at holds that update after the fold, when no two updates share a place. -/
theorem foldl_set_hit (p : N → I) (hp : Function.Injective p) (v : N → α) (n₀ : N) :
    ∀ (l : List N) (r : I → α), n₀ ∈ l →
      (l.foldl (fun r n => fun i => if i = p n then v n else r i) r) (p n₀) = v n₀
  | [], r, h => absurd h List.not_mem_nil
  | a :: l, r, h => by
    rw [List.foldl_cons]
    by_cases hl : n₀ ∈ l
    · exact foldl_set_hit p hp v n₀ l _ hl
    · have ha : n₀ = a := by
        rcases List.mem_cons.1 h with e | e
        · exact e
        · exact absurd e hl
      subst ha
      rw [foldl_set_miss p v (p n₀) l _ (fun n hn e => hl (hp e ▸ hn))]
      exact if_pos rfl

end SetFold

section ScatterSet
variable {α : Type} {s si u : Shape} {w : Nat}

/-- The scatter as the fold of "set place `g j` to update `j`". -/
theorem scatter_set_eq (d : ScatterDims s si u) (x : s.Idx → α) (idx : IVec si w) (upd : u.Idx → α) (g : u.Idx → s.Idx)
    (hres : ∀ j, d.resultIdx? j idx = some (g j)) :
    Host.scatter d (fun _ b => b) x idx upd
      = (List.finRange u.numel).foldl (fun r n => fun i =>
          if i = g (u.rowMajor.symm n) then upd (u.rowMajor.symm n) else r i) x := by
  unfold Host.scatter
  congr 1
  funext r n
  rw [hres]

/-- Update `j` is found at its place `g j`. -/
theorem scatter_set_hit (d : ScatterDims s si u) (x : s.Idx → α) (idx : IVec si w) (upd : u.Idx → α) (g : u.Idx → s.Idx)
    (hg : Function.Injective g) (hres : ∀ j, d.resultIdx? j idx = some (g j)) (j : u.Idx) :
    Host.scatter d (fun _ b => b) x idx upd (g j) = upd j := by
  rw [scatter_set_eq d x idx upd g hres]
  have h := foldl_set_hit (fun n => g (u.rowMajor.symm n)) (fun a b e => u.rowMajor.symm.injective (hg e))
    (fun n => upd (u.rowMajor.symm n)) (u.rowMajor j) (List.finRange u.numel) x (List.mem_finRange _)
  simp only [Equiv.symm_apply_apply] at h
  exact h

/-- A place no update lands at keeps the operand's value. -/
theorem scatter_set_miss (d : ScatterDims s si u) (x : s.Idx → α) (idx : IVec si w) (upd : u.Idx → α) (g : u.Idx → s.Idx)
    (hres : ∀ j, d.resultIdx? j idx = some (g j)) (i' : s.Idx) (hi : ∀ j, g j ≠ i') :
    Host.scatter d (fun _ b => b) x idx upd i' = x i' := by
  rw [scatter_set_eq d x idx upd g hres]
  exact foldl_set_miss (fun n => g (u.rowMajor.symm n)) (fun n => upd (u.rowMajor.symm n)) i'
    (List.finRange u.numel) x (fun n _ => hi _)

end ScatterSet

/-! ## The node features, padded with zero rows

The kernel reads the features from an array of 10240 rows: the 10000 feature rows written, by a scatter with the one
start index 0, over an array of zeros. Row `n` of the features lands at row `n`. -/

/-- Where entry `j` of the features lands in the padded array: the same row and feature. -/
def padIdx (j : S10000x128.Idx) : S10240x128.Idx :=
  ix2 (⟨(j 0).val, by have := idx2_lt0 j; omega⟩ : Fin 10240) (⟨(j 1).val, idx2_lt1 j⟩ : Fin 128)

theorem padIdx_inj : Function.Injective padIdx := by
  intro a b e
  have h0 : (a 0).val = (b 0).val := congrArg (fun k : S10240x128.Idx => (k 0).val) e
  have h1 : (a 1).val = (b 1).val := congrArg (fun k : S10240x128.Idx => (k 1).val) e
  funext k
  match k with
  | ⟨0, _⟩ => exact Fin.ext h0
  | ⟨1, _⟩ => exact Fin.ext h1

/-- The scatter's one start index is the zero word: update `j` lands at `padIdx j`. -/
theorem pad_resultIdx (j : S10000x128.Idx) :
    scatter_S10240x128_S1_S10000x128_01_n_0_0.resultIdx? j
      (broadcastInDim S1 ![] Gen.bcast_S_S1 (constantI S_ 32 0#32)) = some (padIdx j) := by
  have hstart : ∀ a, scatter_S10240x128_S1_S10000x128_01_n_0_0.start j
      (broadcastInDim S1 ![] Gen.bcast_S_S1 (constantI S_ 32 0#32)) a = 0 := by
    intro a
    unfold ScatterDims.start
    split
    · show (0#32 : BitVec 32).toInt = 0
      decide
    · rfl
  have hwin : ∀ a, scatter_S10240x128_S1_S10000x128_01_n_0_0.window j a = (padIdx j a).val := by
    intro a
    match a with
    | ⟨0, _⟩ => rfl
    | ⟨1, _⟩ => rfl
  unfold ScatterDims.resultIdx?
  rw [dif_pos (fun a => by rw [hstart, hwin]; have := (padIdx j a).isLt; constructor <;> omega)]
  congr 1
  funext a
  apply Fin.ext
  show (scatter_S10240x128_S1_S10000x128_01_n_0_0.start j (broadcastInDim S1 ![] Gen.bcast_S_S1 (constantI S_ 32 0#32)) a
    + (scatter_S10240x128_S1_S10000x128_01_n_0_0.window j a : Int)).toNat = (padIdx j a).val
  rw [hstart, hwin]
  simp

set_option maxHeartbeats 2000000 in
theorem feats_term : (V m c main_v26 : FVec Idealize.ShloMosaic.Ideal S10240x128 .bf16)
    = truncf .bf16 (Host.scatter scatter_S10240x128_S1_S10000x128_01_n_0_0 (fun _ b => b)
        (broadcastInDim S10240x128 ![] Gen.bcast_S_S10240x128 (constant (F := Idealize.ShloMosaic.Ideal) S_ .f32 0x00000000#32))
        (broadcastInDim S1 ![] Gen.bcast_S_S1 (constantI S_ 32 0#32))
        (m ((c : Thread nD τ).loc main_arg0))) Gen.bitsLt_bf16_f32 := by
  dsimp only [V, V0]
  simp only [List.flatten_cons, List.flatten_nil, List.append_nil]
  after_results_simp <;> rfl

/-- The kernel's feature array: the node features on the first 10000 rows, zeros on the rest. -/
theorem feats_at (n : Fin 10240) (d : Fin 128) :
    (V m c main_v26 : FVec Idealize.ShloMosaic.Ideal S10240x128 .bf16) (ix2 n d)
      = if h : n.val < 10000 then
          (m ((c : Thread nD τ).loc main_arg0) : FVec Idealize.ShloMosaic.Ideal S10000x128 .f32) (ix2 (⟨n.val, h⟩ : Fin 10000) d)
        else (0 : EReal) := by
  rw [feats_term, truncf_apply]
  by_cases h : n.val < 10000
  · rw [dif_pos h]
    have e : (ix2 n d : S10240x128.Idx) = padIdx (ix2 (⟨n.val, h⟩ : Fin 10000) d) := by
      funext k
      match k with
      | ⟨0, _⟩ => rfl
      | ⟨1, _⟩ => rfl
    rw [e]
    exact scatter_set_hit _ _ _ _ padIdx padIdx_inj pad_resultIdx _
  · rw [dif_neg h, scatter_set_miss _ _ _ _ padIdx pad_resultIdx (ix2 n d) (fun j e => h (by
      have h0 : (j 0).val = n.val := congrArg (fun k : S10240x128.Idx => (k 0).val) e
      have hj := idx2_lt0 j
      omega))]
    exact Ideal.ofBits_zero_f32

/-! ## The normalised edge weights, as the operations' composed term -/

set_option maxHeartbeats 2000000 in
/-- The normalised weights: each edge's weight divided by the summed weight of its source's edges, that sum raised to 1
    where it is less — the host's operations composed, left as they are. -/
theorem norm16_term : (V m c main_v16 : FVec Idealize.ShloMosaic.Ideal S640000 .f32)
    = Host.divf (m ((c : Thread nD τ).loc main_arg2))
        (Host.gather gather_S10000_S640000x1_S640000_n_0_n_n_0_1_1
          (maximumf
            (Host.scatterAdd scatter_S10000_S640000x1_S640000_n_0_0_1
              (broadcastInDim S10000 ![] Gen.bcast_S_S10000 (constant (F := Idealize.ShloMosaic.Ideal) S_ .f32 0x00000000#32))
              (broadcastInDim S640000x1 ![0] Gen.bcast_S640000_S640000x1_0
                (shapeCast S640000 (extractStridedSlice S1x640000 ![0, 0] (m ((c : Thread nD τ).loc main_arg1))
                  Gen.slices_S2x640000_S1x640000_0_0) Gen.shapeCasts_S1x640000_S640000))
              (m ((c : Thread nD τ).loc main_arg2)))
            (broadcastInDim S10000 ![] Gen.bcast_S_S10000 (constant (F := Idealize.ShloMosaic.Ideal) S_ .f32 0x3F800000#32)))
          (broadcastInDim S640000x1 ![0] Gen.bcast_S640000_S640000x1_0
            (select
              (cmpi .slt
                (shapeCast S640000 (extractStridedSlice S1x640000 ![0, 0] (m ((c : Thread nD τ).loc main_arg1))
                  Gen.slices_S2x640000_S1x640000_0_0) Gen.shapeCasts_S1x640000_S640000)
                (broadcastInDim S640000 ![] Gen.bcast_S_S640000 (constantI S_ 32 0#32)))
              (addi
                (shapeCast S640000 (extractStridedSlice S1x640000 ![0, 0] (m ((c : Thread nD τ).loc main_arg1))
                  Gen.slices_S2x640000_S1x640000_0_0) Gen.shapeCasts_S1x640000_S640000)
                (broadcastInDim S640000 ![] Gen.bcast_S_S640000 (constantI S_ 32 10000#32)))
              (shapeCast S640000 (extractStridedSlice S1x640000 ![0, 0] (m ((c : Thread nD τ).loc main_arg1))
                Gen.slices_S2x640000_S1x640000_0_0) Gen.shapeCasts_S1x640000_S640000)))) := by
  dsimp only [V, V0]
  simp only [List.flatten_cons, List.flatten_nil, List.append_nil]
  after_results_simp <;> rfl

/-! ## The host operations after the kernel -/

/-- Core `k`'s slab of the kernel's output, flattened to rows by features, read at row `n` and feature `d`. -/
theorem slab_at (A : FVec Idealize.ShloMosaic.Ideal S2x10240x128 .f32) (k : Fin 2) (off : Fin 3 → Nat)
    (h0 : off 0 = k.val) (h1 : off 1 = 0) (h2 : off 2 = 0)
    (hs : S2x10240x128.Slices off S1x10240x128) (hc : S1x10240x128.ShapeCasts S10240x128) (n : Fin 10240) (d : Fin 128) :
    shapeCast S10240x128 (extractStridedSlice S1x10240x128 off A hs) hc (ix2 n d) = A (ix3 k n d) := by
  rw [shapeCast_apply _ hc (ix2 n d) (ix3 (0 : Fin 1) n d)
    (by rw [Shape.rowMajor_val_three, Shape.rowMajor_val_two]
        show (0 * 10240 + n.val) * 128 + d.val = n.val * 128 + d.val; omega)]
  exact extractStridedSlice_apply off A hs (ix3 (0 : Fin 1) n d) (ix3 k n d)
    (fun a => match a with
      | ⟨0, _⟩ => by show k.val = off 0 + 0; omega
      | ⟨1, _⟩ => by show n.val = off 1 + n.val; omega
      | ⟨2, _⟩ => by show d.val = off 2 + d.val; omega)

/-- What the host computes from the kernel's output `A` (one slab per core) and the node features `x`:
    the two slabs added, the padding rows dropped, scaled, plus the scaled features. -/
def tailOf (A : FVec Idealize.ShloMosaic.Ideal S2x10240x128 .f32) (x : FVec Idealize.ShloMosaic.Ideal S10000x128 .f32) :
    FVec Idealize.ShloMosaic.Ideal S10000x128 .f32 :=
  addf (mulf (broadcastInDim S10000x128 ![] Gen.bcast_S_S10000x128 (constant (F := Idealize.ShloMosaic.Ideal) S_ .f32 0x3F666666#32))
      (extractStridedSlice S10000x128 ![0, 0]
        (addf
          (shapeCast S10240x128 (extractStridedSlice S1x10240x128 ![0, 0, 0] A Gen.slices_S2x10240x128_S1x10240x128_0_0_0)
            Gen.shapeCasts_S1x10240x128_S10240x128)
          (shapeCast S10240x128 (extractStridedSlice S1x10240x128 ![1, 0, 0] A Gen.slices_S2x10240x128_S1x10240x128_1_0_0)
            Gen.shapeCasts_S1x10240x128_S10240x128))
        Gen.slices_S10240x128_S10000x128_0_0))
    (mulf (broadcastInDim S10000x128 ![] Gen.bcast_S_S10000x128 (constant (F := Idealize.ShloMosaic.Ideal) S_ .f32 0x3DCCCCCD#32)) x)

/-- The same at node `n` and feature `d`. -/
theorem tailOf_at (A : FVec Idealize.ShloMosaic.Ideal S2x10240x128 .f32) (x : FVec Idealize.ShloMosaic.Ideal S10000x128 .f32)
    (n : Fin 10000) (d : Fin 128) :
    tailOf A x (ix2 n d)
      = Ideal.ofBits .f32 0x3F666666#32
          * (A (ix3 (0 : Fin 2) (⟨n.val, by have := n.isLt; omega⟩ : Fin 10240) d)
              + A (ix3 (1 : Fin 2) (⟨n.val, by have := n.isLt; omega⟩ : Fin 10240) d))
        + Ideal.ofBits .f32 0x3DCCCCCD#32 * x (ix2 n d) := by
  unfold tailOf
  rw [addf_apply, mulf_apply, mulf_apply,
    extractStridedSlice_apply ![0, 0] _ Gen.slices_S10240x128_S10000x128_0_0 (ix2 n d)
      (ix2 (⟨n.val, by have := n.isLt; omega⟩ : Fin 10240) d)
      (fun a => match a with
        | ⟨0, _⟩ => by show n.val = 0 + n.val; omega
        | ⟨1, _⟩ => by show d.val = 0 + d.val; omega),
    addf_apply, slab_at A 0 ![0, 0, 0] rfl rfl rfl, slab_at A 1 ![1, 0, 0] rfl rfl rfl]
  rfl

set_option maxHeartbeats 2000000 in
/-- The program's result array is `tailOf` of the kernel's output array and the node features. -/
theorem tail_term :
    (Pipeline.afterTail₀ cfgs (dats m) 0 (V0 m) [hostOps1] c main_v38 : FVec Idealize.ShloMosaic.Ideal S10000x128 .f32)
      = tailOf ((dats m 0 c).arrAt 4 cfg0.N) (m ((c : Thread nD τ).loc main_arg0)) := by
  have hA : Pipeline.withArrays (cfgs 0).spec c (V0 m c) (fun w => (dats m 0 c).arrAt w (cfgs 0).N) (Proc.devRef .tc main_v27)
      = (dats m 0 c).arrAt 4 cfg0.N :=
    Pipeline.withArrays_arr spec0 launch0.win.arr_inj c (V0 m c) (fun w => (dats m 0 c).arrAt w cfg0.N) 4
  have hx : Pipeline.withArrays (cfgs 0).spec c (V0 m c) (fun w => (dats m 0 c).arrAt w (cfgs 0).N) (Proc.devRef .tc main_arg0)
      = m ((c : Thread nD τ).loc main_arg0) :=
    (Pipeline.withArrays_of_ne spec0 c (V0 m c) (fun w => (dats m 0 c).arrAt w cfg0.N) main_arg0
      (by exact (by decide : ∀ w, Pipeline.arrRef spec0 w ≠ main_arg0))).trans (V_main_arg0 m c)
  unfold Pipeline.afterTail₀ tailOf
  show StableHlo.after hostOps1 _ (Proc.devRef .tc main_v38) = _
  after_results_simp
  rw [hA, hx]
  rfl

/-- The kernel's output array when the kernel has run: one slab of partial sums per core. -/
abbrev outArr : FVec Idealize.ShloMosaic.Ideal S2x10240x128 .f32 := (dats m 0 c).arrAt 4 cfg0.N
/-- The node features in launch memory. -/
abbrev featArr : FVec Idealize.ShloMosaic.Ideal S10000x128 .f32 := m ((c : Thread nD τ).loc main_arg0)

/-- THE RESULT at node `n` and feature `d`: the two cores' sums added and scaled, plus the scaled feature. -/
theorem tail_at (n : Fin 10000) (d : Fin 128) :
    (Pipeline.afterTail₀ cfgs (dats m) 0 (V0 m) [hostOps1] c main_v38 : FVec Idealize.ShloMosaic.Ideal S10000x128 .f32) (ix2 n d)
      = Ideal.ofBits .f32 0x3F666666#32
          * (outArr m c (ix3 (0 : Fin 2) (⟨n.val, by have := n.isLt; omega⟩ : Fin 10240) d)
              + outArr m c (ix3 (1 : Fin 2) (⟨n.val, by have := n.isLt; omega⟩ : Fin 10240) d))
        + Ideal.ofBits .f32 0x3DCCCCCD#32 * featArr m c (ix2 n d) := by
  rw [tail_term, tailOf_at]

end Cert.KernelIdeal.HostSide
end
-- ==== Proof.Blocks.lean ====
/-
  What the kernel's windows hold, and what its output array ends holding.

  The kernel runs over 626 grid points: two sweeps of 313 points, one per core. At point `t` the three edge windows hold
  block `t` (1024 entries) of the source words, the destination words and the edge weights; the feature window holds the
  whole padded feature array. The output window is slab `t / 313` of the output array, accumulated over a core's sweep
  and written back after the sweep's last point, `313 cc + 312`: the output array's slab `cc` ends holding what the
  output's staging buffer holds after that point.
-/
import proofs.«114975_j16947940950524_2_alg».proof.Proof.HostSide

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Idealize.ShloMosaic.Ideal) ℓ) (c : Dev nD)

/-! ## The printed index maps, decided once over the grid -/

/-- The output window's block at point `t` is slab `t / 313`, whole. -/
theorem idx_out : ∀ t : Fin cfg0.N, win0_4.index t (0 : Fin 3) = t.val / 313
    ∧ win0_4.index t (1 : Fin 3) = 0 ∧ win0_4.index t (2 : Fin 3) = 0 :=
  (by decide +kernel : ∀ t : Fin grid0.N, _)

/-- The three edge windows' block at point `t` is block `t` of 1024 edges. -/
theorem idx_rows : ∀ t : Fin cfg0.N, win0_0.index t (0 : Fin 1) = t.val :=
  (by decide +kernel : ∀ t : Fin grid0.N, _)
theorem idx_cols : ∀ t : Fin cfg0.N, win0_1.index t (0 : Fin 1) = t.val :=
  (by decide +kernel : ∀ t : Fin grid0.N, _)
theorem idx_norms : ∀ t : Fin cfg0.N, win0_2.index t (0 : Fin 1) = t.val :=
  (by decide +kernel : ∀ t : Fin grid0.N, _)
/-- The feature window's block is the whole array at every point. -/
theorem idx_feats : ∀ t : Fin cfg0.N, win0_3.index t (0 : Fin 2) = 0 ∧ win0_3.index t (1 : Fin 2) = 0 :=
  (by decide +kernel : ∀ t : Fin grid0.N, _)

theorem N626 : cfg0.N = 626 := N_0

/-- The output array as one function of its index: slab `cc` is what the staging buffer holds after the last point
    of core `cc`'s sweep, point `313 cc + 312`. -/
def G (j : S2x10240x128.Idx) : Elt Idealize.ShloMosaic.Ideal .f32 :=
  outsAt0 m c (313 * (j 0).val + 312) (by have h : (j 0).val < 2 := (j 0).isLt; rw [N626]; omega)
    (ix3 (0 : Fin 1) (⟨(j 1).val, (j 1).isLt⟩ : Fin 10240) (⟨(j 2).val, (j 2).isLt⟩ : Fin 128))

/-- Reading the staging buffer after point `n` at an index depends on the number and the index only. -/
theorem outsAt0_congr (n n' : ℕ) (h : n < cfg0.N) (h' : n' < cfg0.N) (e : n = n') (i i' : S1x10240x128.Idx) (ei : i = i') :
    outsAt0 m c n h i = outsAt0 m c n' h' i' := by
  subst e; subst ei; rfl

/-- WHAT A WRITING-BACK POINT WRITES is its block of `G`: the point is the last of its core's sweep, and its block is
    that core's slab. -/
theorem flushed_eq (t : Fin cfg0.N) (hf : (cfg0.win 4).flush t = true) :
    (dats m 0 c).flushed 4 t = ((cfg0.win 4).blk t).view.read (Elt Idealize.ShloMosaic.Ideal) (G m c) := by
  have h312 : t.val % 313 = 312 := (flush0_4 t).mp hf
  obtain ⟨e0, e1, e2⟩ := idx_out t
  show (cfg0.win 4).cut (grid0.coords t) ((dats m 0 c).after 4 t) = _
  rw [after0_4]
  funext y
  have hy0 : (y 0).val < 1 := (y 0).isLt
  show outsAt0 m c t.val t.isLt ((cfg0.win 4).xinj (grid0.coords t) y) = G m c (((cfg0.win 4).blk t).view.emb y)
  unfold G
  refine outsAt0_congr m c _ _ _ _ ?_ _ _ ?_
  · show t.val = 313 * (win0_4.index t (0 : Fin 3) * 1 + 1 * (y 0).val) + 312
    rw [e0]; omega
  · funext a
    apply Fin.ext
    match a with
    | ⟨0, _⟩ => show (y 0).val = 0; omega
    | ⟨1, _⟩ => show (y 1).val = win0_4.index t (1 : Fin 3) * 10240 + 1 * (y 1).val; rw [e1]; omega
    | ⟨2, _⟩ => show (y 2).val = win0_4.index t (2 : Fin 3) * 128 + 1 * (y 2).val; rw [e2]; omega

/-- An index of the output array is in point `t`'s block iff each coordinate is in the block's range on its axis. -/
theorem mem_blk_out (t : Fin cfg0.N) (i : S2x10240x128.Idx) :
    i ∈ ((cfg0.win 4).blk t).view.set ↔ ∀ a : Fin 3, win0_4.index t a * S1x10240x128.size a ≤ (i a).val
      ∧ (i a).val < win0_4.index t a * S1x10240x128.size a + S1x10240x128.size a := by
  show i ∈ ((View.whole main_v27).slice (win0_4.rect t)).set ↔ _
  rw [View.set_slice_whole, Rect.mem_set_unit]
  exact Iff.rfl

/-- Every index of the output array is in the block of the last point of its slab's sweep. -/
theorem cover_out (i : S2x10240x128.Idx) :
    ∃ t : Fin cfg0.N, (cfg0.win 4).flush t = true ∧ i ∈ ((cfg0.win 4).blk t).view.set := by
  have h0 : (i 0).val < 2 := (i 0).isLt
  have h1 : (i 1).val < 10240 := (i 1).isLt
  have h2 : (i 2).val < 128 := (i 2).isLt
  have ht : 313 * (i 0).val + 312 < cfg0.N := by rw [N626]; omega
  obtain ⟨e0, e1, e2⟩ := idx_out ⟨313 * (i 0).val + 312, ht⟩
  have e0' : win0_4.index ⟨313 * (i 0).val + 312, ht⟩ (0 : Fin 3) = (313 * (i 0).val + 312) / 313 := e0
  refine ⟨⟨313 * (i 0).val + 312, ht⟩, (flush0_4 _).mpr (by show (313 * (i 0).val + 312) % 313 = 312; omega), ?_⟩
  rw [mem_blk_out]
  intro a
  match a with
  | ⟨0, _⟩ =>
    show win0_4.index ⟨313 * (i 0).val + 312, ht⟩ (0 : Fin 3) * 1 ≤ (i 0).val
      ∧ (i 0).val < win0_4.index ⟨313 * (i 0).val + 312, ht⟩ (0 : Fin 3) * 1 + 1
    rw [e0']; omega
  | ⟨1, _⟩ =>
    show win0_4.index ⟨313 * (i 0).val + 312, ht⟩ (1 : Fin 3) * 10240 ≤ (i 1).val
      ∧ (i 1).val < win0_4.index ⟨313 * (i 0).val + 312, ht⟩ (1 : Fin 3) * 10240 + 10240
    rw [e1]; omega
  | ⟨2, _⟩ =>
    show win0_4.index ⟨313 * (i 0).val + 312, ht⟩ (2 : Fin 3) * 128 ≤ (i 2).val
      ∧ (i 2).val < win0_4.index ⟨313 * (i 0).val + 312, ht⟩ (2 : Fin 3) * 128 + 128
    rw [e2]; omega

/-- THE OUTPUT ARRAY after the run is `G`. -/
theorem out_final : (dats m 0 c).arrAt 4 cfg0.N = G m c :=
  (dats m 0 c).arrAt_eq_of_cover 4 (G m c) (flushed_eq m c) (cover_out)

/-- Slab `cc` of the output array, at row `n` and feature `d`. -/
theorem arrAt_out_at (cc : Fin 2) (n : Fin 10240) (d : Fin 128) :
    ((dats m 0 c).arrAt 4 cfg0.N : FVec Idealize.ShloMosaic.Ideal S2x10240x128 .f32) (ix3 cc n d)
      = outsAt0 m c (313 * cc.val + 312) (by have := cc.isLt; rw [N626]; omega) (ix3 (0 : Fin 1) n d) := by
  rw [out_final]
  rfl

/-! ## The input windows' blocks, read at an index

Each read is stated first for ANY contents `A` of the window's array, then used at the array's contents when the
kernel is entered. -/

/-- Block `t` of a flat array of 641024 words through window 0: entries `1024 t … 1024 t + 1023`. -/
theorem read_blk0 (A : IVec S641024 32) (t : Fin cfg0.N) (e : Fin 1024) :
    ((cfg0.win 0).blk t).view.read (Elt Idealize.ShloMosaic.Ideal) A (ix1 e)
      = A (ix1 (⟨1024 * t.val + e.val, by have h : t.val < 626 := lt_of_lt_of_eq t.isLt N626; have := e.isLt; omega⟩ : Fin 641024)) := by
  rw [View.read_apply]
  show A _ = A _
  refine congrArg A ?_
  funext a
  apply Fin.ext
  match a with
  | ⟨0, _⟩ => show win0_0.index t (0 : Fin 1) * 1024 + 1 * e.val = 1024 * t.val + e.val; rw [idx_rows t]; omega

/-- The same through window 1. -/
theorem read_blk1 (A : IVec S641024 32) (t : Fin cfg0.N) (e : Fin 1024) :
    ((cfg0.win 1).blk t).view.read (Elt Idealize.ShloMosaic.Ideal) A (ix1 e)
      = A (ix1 (⟨1024 * t.val + e.val, by have h : t.val < 626 := lt_of_lt_of_eq t.isLt N626; have := e.isLt; omega⟩ : Fin 641024)) := by
  rw [View.read_apply]
  show A _ = A _
  refine congrArg A ?_
  funext a
  apply Fin.ext
  match a with
  | ⟨0, _⟩ => show win0_1.index t (0 : Fin 1) * 1024 + 1 * e.val = 1024 * t.val + e.val; rw [idx_cols t]; omega

/-- The same through window 2, of extended reals. -/
theorem read_blk2 (A : FVec Idealize.ShloMosaic.Ideal S641024 .f32) (t : Fin cfg0.N) (e : Fin 1024) :
    ((cfg0.win 2).blk t).view.read (Elt Idealize.ShloMosaic.Ideal) A (ix1 e)
      = A (ix1 (⟨1024 * t.val + e.val, by have h : t.val < 626 := lt_of_lt_of_eq t.isLt N626; have := e.isLt; omega⟩ : Fin 641024)) := by
  rw [View.read_apply]
  show A _ = A _
  refine congrArg A ?_
  funext a
  apply Fin.ext
  match a with
  | ⟨0, _⟩ => show win0_2.index t (0 : Fin 1) * 1024 + 1 * e.val = 1024 * t.val + e.val; rw [idx_norms t]; omega

/-- Window 3's block is the whole array at every point. -/
theorem read_blk3 (A : FVec Idealize.ShloMosaic.Ideal S10240x128 .bf16) (t : Fin cfg0.N) (n : Fin 10240) (d : Fin 128) :
    ((cfg0.win 3).blk t).view.read (Elt Idealize.ShloMosaic.Ideal) A (ix2 n d) = A (ix2 n d) := by
  rw [View.read_apply]
  show A _ = A _
  refine congrArg A ?_
  funext a
  apply Fin.ext
  match a with
  | ⟨0, _⟩ => show win0_3.index t (0 : Fin 2) * 10240 + 1 * n.val = n.val; rw [(idx_feats t).1]; omega
  | ⟨1, _⟩ => show win0_3.index t (1 : Fin 2) * 128 + 1 * d.val = d.val; rw [(idx_feats t).2]; omega

/-- Block `t` of the source words: words `1024 t … 1024 t + 1023` of the kernel's source array. -/
theorem blk_rows (t : Fin cfg0.N) (e : Fin 1024) :
    (iblk m c 0 t : Vec Idealize.ShloMosaic.Ideal S1024 .i32) (ix1 e)
      = (V m c main_v18 : IVec S641024 32)
          (ix1 (⟨1024 * t.val + e.val, by have h : t.val < 626 := lt_of_lt_of_eq t.isLt N626; have := e.isLt; omega⟩ : Fin 641024)) := by
  unfold iblk
  exact read_blk0 _ t e

/-- Block `t` of the destination words. -/
theorem blk_cols (t : Fin cfg0.N) (e : Fin 1024) :
    (iblk m c 1 t : Vec Idealize.ShloMosaic.Ideal S1024 .i32) (ix1 e)
      = (V m c main_v20 : IVec S641024 32)
          (ix1 (⟨1024 * t.val + e.val, by have h : t.val < 626 := lt_of_lt_of_eq t.isLt N626; have := e.isLt; omega⟩ : Fin 641024)) := by
  unfold iblk
  exact read_blk1 _ t e

/-- Block `t` of the edge weights. -/
theorem blk_norms (t : Fin cfg0.N) (e : Fin 1024) :
    (iblk m c 2 t : Vec Idealize.ShloMosaic.Ideal S1024 .f32) (ix1 e)
      = (V m c main_v22 : FVec Idealize.ShloMosaic.Ideal S641024 .f32)
          (ix1 (⟨1024 * t.val + e.val, by have h : t.val < 626 := lt_of_lt_of_eq t.isLt N626; have := e.isLt; omega⟩ : Fin 641024)) := by
  unfold iblk
  exact read_blk2 _ t e

/-- The feature window's block is the whole padded feature array, at every point. -/
theorem blk_feats (t : Fin cfg0.N) (n : Fin 10240) (d : Fin 128) :
    (iblk m c 3 t : Vec Idealize.ShloMosaic.Ideal S10240x128 .bf16) (ix2 n d)
      = (V m c main_v26 : FVec Idealize.ShloMosaic.Ideal S10240x128 .bf16) (ix2 n d) := by
  unfold iblk
  exact read_blk3 _ t n d

/-! ## The blocks and the output array as functions of the inputs -/

/-- Block `t` of the source words, of the edge list: past the 640000 edges, zero words. -/
theorem blk_rows_src (t : Fin cfg0.N) (e : Fin 1024) :
    (iblk m c 0 t : Vec Idealize.ShloMosaic.Ideal S1024 .i32) (ix1 e)
      = if h : 1024 * t.val + e.val < 640000 then
          Cert.Propagate.src (m ((c : Thread nD τ).loc main_arg1)) ⟨1024 * t.val + e.val, h⟩
        else 0#32 :=
  (blk_rows m c t e).trans (HostSide.rows_at m c _)

/-- Block `t` of the destination words, of the edge list. -/
theorem blk_cols_dst (t : Fin cfg0.N) (e : Fin 1024) :
    (iblk m c 1 t : Vec Idealize.ShloMosaic.Ideal S1024 .i32) (ix1 e)
      = if h : 1024 * t.val + e.val < 640000 then
          Cert.Propagate.dst (m ((c : Thread nD τ).loc main_arg1)) ⟨1024 * t.val + e.val, h⟩
        else 0#32 :=
  (blk_cols m c t e).trans (HostSide.cols_at m c _)

/-- Block `t` of the edge weights, of the normalised weights: past the 640000 edges, zeros. -/
theorem blk_norms_w (t : Fin cfg0.N) (e : Fin 1024) :
    (iblk m c 2 t : Vec Idealize.ShloMosaic.Ideal S1024 .f32) (ix1 e)
      = if h : 1024 * t.val + e.val < 640000 then
          (V m c main_v16 : FVec Idealize.ShloMosaic.Ideal S640000 .f32) (ix1 ⟨1024 * t.val + e.val, h⟩)
        else (0 : EReal) :=
  (blk_norms m c t e).trans (HostSide.norms_at m c _)

/-- The feature window, of the node features: past the 10000 nodes, zero rows. -/
theorem blk_feats_x (t : Fin cfg0.N) (n : Fin 10240) (d : Fin 128) :
    (iblk m c 3 t : Vec Idealize.ShloMosaic.Ideal S10240x128 .bf16) (ix2 n d)
      = if h : n.val < 10000 then
          (m ((c : Thread nD τ).loc main_arg0) : FVec Idealize.ShloMosaic.Ideal S10000x128 .f32) (ix2 (⟨n.val, h⟩ : Fin 10000) d)
        else (0 : EReal) :=
  (blk_feats m c t n d).trans (HostSide.feats_at m c n d)

/-- THE OUTPUT ARRAY at slab `cc`, row `n`, feature `d`: what the staging buffer holds after point `313 cc + 312`. -/
theorem outArr_at (cc : Fin 2) (n : Fin 10240) (d : Fin 128) :
    HostSide.outArr m c (ix3 cc n d)
      = outsAt0 m c (313 * cc.val + 312) (by have := cc.isLt; rw [N626]; omega) (ix3 (0 : Fin 1) n d) :=
  arrAt_out_at m c cc n d

end Cert.KernelIdeal.Blocks
end
-- ==== Proof.BlockSum.lean ====
/-
  Sums over a grid of edge blocks, in an arbitrary commutative additive monoid.

  640000 edges are padded to 641024 = 626 · 1024 and cut into 626 blocks of 1024; the blocks are dealt to two halves of
  313 blocks each, and within a half a running sum takes the blocks in order, restarting at the half's first block.
  Nothing here depends on what the summands are: a running sum that restarts at every multiple of 313 holds, at the end
  of a stretch of 313 steps, the sum of that stretch; the sum over blocks of the sums over a block's 1024 places is the
  sum over all places; two stretches of 313 make 626; and summands that vanish from 640000 on may be dropped. Only
  commutativity and associativity of the addition are used, so the statements hold in the extended reals as they stand.
-/
import Mathlib.Algebra.BigOperators.Fin
import Mathlib.Algebra.BigOperators.Group.Finset.Basic

namespace Cert.BlockSum

open Finset
open scoped BigOperators

variable {M : Type*} [AddCommMonoid M]

/-! ## A running sum that restarts at every multiple of 313 -/

/-- The running sum of `g` that restarts at every multiple of 313: step 0 holds `g 0`; step `t + 1` holds `g (t + 1)`
    alone if `t + 1` is a multiple of 313, and otherwise what step `t` held plus `g (t + 1)`. -/
def acc (g : ℕ → M) : ℕ → M
  | 0 => g 0
  | t + 1 => if (t + 1) % 313 = 0 then g (t + 1) else acc g t + g (t + 1)

theorem acc_zero (g : ℕ → M) : acc g 0 = g 0 := rfl

theorem acc_succ (g : ℕ → M) (t : ℕ) :
    acc g (t + 1) = if (t + 1) % 313 = 0 then g (t + 1) else acc g t + g (t + 1) := rfl

/-- At every step the running sum holds the sum of `g` from the last multiple of 313 up to that step. -/
theorem acc_eq (g : ℕ → M) (t : ℕ) : acc g t = ∑ s ∈ range (t % 313 + 1), g (t - t % 313 + s) := by
  induction t with
  | zero => simp [acc_zero]
  | succ t ih =>
    rw [acc_succ]
    by_cases h : (t + 1) % 313 = 0
    · rw [if_pos h, h]
      simp
    · rw [if_neg h, ih]
      have h1 : (t + 1) % 313 = t % 313 + 1 := by omega
      have h2 : t + 1 - (t % 313 + 1) = t - t % 313 := by omega
      have h3 : t - t % 313 + (t % 313 + 1) = t + 1 := by omega
      rw [h1, h2, sum_range_succ (fun s => g (t - t % 313 + s)) (t % 313 + 1), h3]

/-- At the last step of the stretch that starts at `313 * q` the running sum holds the sum of the whole stretch. -/
theorem acc_last (g : ℕ → M) (q : ℕ) : acc g (313 * q + 312) = ∑ s ∈ range 313, g (313 * q + s) := by
  have h1 : (313 * q + 312) % 313 = 312 := by omega
  have h2 : 313 * q + 312 - 312 = 313 * q := by omega
  rw [acc_eq, h1, h2]

/-! ## Blocks of 1024 -/

/-- The sum over `B` blocks of the sums over each block's 1024 places is the sum over the first `1024 * B` places. -/
theorem blocks (f : ℕ → M) (B : ℕ) :
    ∑ t ∈ range B, ∑ e : Fin 1024, f (1024 * t + e.val) = ∑ E ∈ range (1024 * B), f E := by
  induction B with
  | zero => simp
  | succ B ih =>
    rw [sum_range_succ, ih, Nat.mul_succ, sum_range_add, Finset.sum_range (fun s => f (1024 * B + s))]

/-! ## Two stretches of 313 -/

/-- The first 313 terms plus the next 313 terms are the first 626 terms. -/
theorem two_cores (g : ℕ → M) :
    ∑ s ∈ range 313, g s + ∑ s ∈ range 313, g (313 + s) = ∑ t ∈ range 626, g t :=
  (sum_range_add g 313 313).symm

/-! ## Padding -/

/-- Summands that vanish from 640000 on: the sum over the first 641024 places is the sum over the first 640000. -/
theorem padding (f : ℕ → M) (hf : ∀ E, 640000 ≤ E → f E = 0) :
    ∑ E ∈ range 641024, f E = ∑ e : Fin 640000, f e.val := by
  rw [eventually_constant_sum (N := 640000) (fun n hn => hf n hn) (by omega), Finset.sum_range]

/-! ## The combination -/

/-- Two halves of 313 blocks of 1024 places each, the second half starting at block 313, over summands that vanish
    from 640000 on: together they are the sum over the 640000 places. -/
theorem two_halves (f : ℕ → M) (hf : ∀ E, 640000 ≤ E → f E = 0) :
    (∑ s ∈ range 313, ∑ e : Fin 1024, f (1024 * s + e.val))
        + (∑ s ∈ range 313, ∑ e : Fin 1024, f (1024 * (313 + s) + e.val))
      = ∑ e : Fin 640000, f e.val :=
  calc (∑ s ∈ range 313, ∑ e : Fin 1024, f (1024 * s + e.val))
          + (∑ s ∈ range 313, ∑ e : Fin 1024, f (1024 * (313 + s) + e.val))
      = ∑ t ∈ range 626, ∑ e : Fin 1024, f (1024 * t + e.val) :=
        two_cores (fun t => ∑ e : Fin 1024, f (1024 * t + e.val))
    _ = ∑ E ∈ range (1024 * 626), f E := blocks f 626
    _ = ∑ E ∈ range 641024, f E := by rw [show 1024 * 626 = 641024 by omega]
    _ = ∑ e : Fin 640000, f e.val := padding f hf

end Cert.BlockSum
-- ==== Proof.Payload.lean ====
/-
  The two vector payloads of the kernel body, read entry by entry on the extended reals.

  Both are products with a SELECTION MATRIX: a matrix of zeros and ones whose entry is one exactly where an edge's
  32-bit word equals a node's number. Gathering: row `e` of the product of the selection matrix of the source words with
  a tile of node features is the feature row of the node the word names, when that node lies in the tile. Scattering: row
  `r` of the product of the selection matrix of the destination words with the block's messages is the sum of the messages
  of the edges whose destination is node `r` of the tile. A change of float format is the identity here, and a product
  into a zero accumulator is the plain sum over the contracted index.
-/
import proofs.«114975_j16947940950524_2_alg».proof.Proof.Gen.KernelIdeal.Skeleton
import Idealize.ShloMosaic.Lib.ValueIdx
import Idealize.ShloMosaic.Lib.Pipeline.Value
import Idealize.ShloMosaic.Lib.KernelVsHost
import Idealize.ShloMosaic.PureOps.Ideal.Laws

set_option maxRecDepth 16384

noncomputable section

namespace Cert.KernelIdeal.Payload

open Cert.KernelIdeal Cert.KernelIdeal.Gen
open Idealize.ShloMosaic Idealize.ShloMosaic.ValueIdx

/-- The entry of a selection matrix: one where the two words agree, zero elsewhere. -/
def hot (a b : BitVec 32) : EReal := if a = b then 1 else 0

theorem bit_toInt : ∀ c : Bool, (((BitVec.ofBool c).setWidth 32).toInt : ℤ) = if c then 1 else 0 := by decide

theorem hot_eq (a b : BitVec 32) :
    (FloatOps.sitofp (F := Ideal) .f32 ((IntOp.cmpi .eq a b).setWidth 32) : EReal) = hot a b := by
  show ((((IntOp.cmpi .eq a b).setWidth 32).toInt : ℝ) : EReal) = hot a b
  unfold hot IntOp.cmpi
  rw [bit_toInt]
  by_cases h : a = b
  · simp [h]
  · simp [h]

/-- The first node of tile `k` as a word. -/
theorem base1 : ∀ k : Fin k0_t1_loop.trips,
    Scalar.muli (Scalar.addi 0#32 (Scalar.muli (Scf.iv 0#32 1#32 k) 1#32)) 1024#32 = BitVec.ofNat 32 (1024 * k.val) := by
  decide +kernel

/-- The product's dimension numbers: rows of the left operand against rows of the right. -/
abbrev dd : DotDims S1024x1024 S1024x128 S1024x128 := dot_S1024x1024_S1024x128_S1024x128_1_0_0_1_n_n

theorem lhs_at (e : Fin 1024) (d : Fin 128) (q : dd.contr.Idx) :
    dd.lhsIdx (ix2 e d) q = ix2 e ((contrEquiv1 dd 1024 rfl rfl) q) := by
  funext a
  apply Fin.ext
  match a with
  | ⟨0, _⟩ => rfl
  | ⟨1, _⟩ => rfl

theorem rhs_at (e : Fin 1024) (d : Fin 128) (q : dd.contr.Idx) :
    dd.rhsIdx (ix2 e d) q = ix2 ((contrEquiv1 dd 1024 rfl rfl) q) d := by
  funext a
  apply Fin.ext
  match a with
  | ⟨0, _⟩ => rfl
  | ⟨1, _⟩ => rfl

/-- A comparison of two vectors of words, read at an index. -/
theorem cmpi_apply {s : Shape} {w : Nat} (p : CmpIPredicate) (x y : IVec s w) (i : s.Idx) :
    cmpi p x y i = IntOp.cmpi p (x i) (y i) := rfl

/-- A word held per row and spread across the columns reads that row's word. -/
theorem rowsel (v3 : IVec S1024 32) (e kk : Fin 1024) :
    broadcastTo S1024x1024 (shapeCast S1024x1 v3 shapeCasts_S1024_S1024x1) broadcasts_S1024x1_S1024x1024 (ix2 e kk) = v3 (ix1 e) := by
  rw [broadcastTo_apply _ _ (ix2 e kk) (ix2 e (0 : Fin 1)) (fun a => by match a with | ⟨0, _⟩ => rfl | ⟨1, _⟩ => rfl)]
  exact shapeCast_apply v3 _ (ix2 e 0) (ix1 e) (by rw [Shape.rowMajor_val_one, Shape.rowMajor_val_two]; simp)

/-- A word held per column and spread down the rows reads that column's word. -/
theorem colsel (v5 : IVec S1024 32) (r e : Fin 1024) :
    broadcastTo S1024x1024 (shapeCast S1x1024 v5 shapeCasts_S1024_S1x1024) broadcasts_S1x1024_S1024x1024 (ix2 r e) = v5 (ix1 e) := by
  rw [broadcastTo_apply _ _ (ix2 r e) (ix2 (0 : Fin 1) e) (fun a => by match a with | ⟨0, _⟩ => rfl | ⟨1, _⟩ => rfl)]
  exact shapeCast_apply v5 _ (ix2 0 e) (ix1 e) (by rw [Shape.rowMajor_val_one, Shape.rowMajor_val_two]; simp)

/-- Column `kk` of tile `k` is node `1024 k + kk`. -/
theorem nodeword1 (k : Fin k0_t1_loop.trips) (e kk : Fin 1024) :
    addi (broadcast S1024x1024 (Scalar.muli (Scalar.addi 0#32 (Scalar.muli (Scf.iv 0#32 1#32 k) 1#32)) 1024#32)) (iota .tc S1024x1024 32 [1] iota_S1024x1024_d1_w32) (ix2 e kk)
      = BitVec.ofNat 32 (1024 * k.val + kk.val) := by
  show IntOp.addi (Scalar.muli (Scalar.addi 0#32 (Scalar.muli (Scf.iv 0#32 1#32 k) 1#32)) 1024#32) (BitVec.ofNat 32 (0 * 1024 + kk.val)) = _
  rw [base1 k]
  simp [IntOp.addi, BitVec.ofNat_add]

/-- The selection matrix of the gathering pass, entry by entry. -/
theorem sel1 (v3 : IVec S1024 32) (k : Fin k0_t1_loop.trips) (e kk : Fin 1024) :
    (truncf .bf16 (sitofp (F := Ideal) .f32 (extui 32 (cmpi .eq
        (broadcastTo S1024x1024 (shapeCast S1024x1 v3 shapeCasts_S1024_S1024x1) broadcasts_S1024x1_S1024x1024)
        (addi (broadcast S1024x1024 (Scalar.muli (Scalar.addi 0#32 (Scalar.muli (Scf.iv 0#32 1#32 k) 1#32)) 1024#32)) (iota .tc S1024x1024 32 [1] iota_S1024x1024_d1_w32))) natLt_1_32)) bitsLt_bf16_f32) (ix2 e kk)
      = hot (v3 (ix1 e)) (BitVec.ofNat 32 (1024 * k.val + kk.val)) := by
  rw [truncf_apply, sitofp_apply, extui_apply, cmpi_apply, rowsel, nodeword1, hot_eq]

/-- THE GATHERING PASS, one tile: to what the scratch held, row `e` adds the rows of the tile selected by the word of
    edge `e` — a sum over the tile's 1024 nodes of a selection entry times the node's feature. -/
theorem pay3_apply (v3 : Vec Ideal S1024 .i32) (k : Fin k0_t1_loop.trips) (v25 : Vec Ideal S1024x128 .bf16)
    (v36 : Vec Ideal S1024x128 .f32) (e : Fin 1024) (d : Fin 128) :
    k0_pay3 (F := Ideal) v3 k v25 v36 (ix2 e d)
      = v36 (ix2 e d) + ∑ kk : Fin 1024, hot (v3 (ix1 e)) (BitVec.ofNat 32 (1024 * k.val + kk.val)) * v25 (ix2 kk d) := by
  unfold k0_pay3
  simp only [shapeCast_self]
  rw [addf_apply]
  simp only [matmul]
  rw [Ideal.matmul_constant_zero_apply]
  rw [← Equiv.sum_comp (contrEquiv1 dd 1024 rfl rfl).symm]
  refine congrArg (v36 (ix2 e d) + ·) (Finset.sum_congr rfl fun kk _ => ?_)
  rw [lhs_at, rhs_at, Equiv.apply_symm_apply]
  exact congrArg (· * v25 (ix2 kk d)) (sel1 v3 k e kk)

theorem base2 : ∀ k : Fin k0_t2_loop.trips,
    Scalar.muli (Scalar.addi 0#32 (Scalar.muli (Scf.iv 0#32 1#32 k) 1#32)) 1024#32 = BitVec.ofNat 32 (1024 * k.val) := by
  decide +kernel

/-- Row `r` of tile `k` is node `1024 k + r`. -/
theorem nodeword2 (k : Fin k0_t2_loop.trips) (r e : Fin 1024) :
    addi (broadcast S1024x1024 (Scalar.muli (Scalar.addi 0#32 (Scalar.muli (Scf.iv 0#32 1#32 k) 1#32)) 1024#32)) (iota .tc S1024x1024 32 [0] iota_S1024x1024_d0_w32) (ix2 r e)
      = BitVec.ofNat 32 (1024 * k.val + r.val) := by
  show IntOp.addi (Scalar.muli (Scalar.addi 0#32 (Scalar.muli (Scf.iv 0#32 1#32 k) 1#32)) 1024#32) (BitVec.ofNat 32 (0 * 1024 + r.val)) = _
  rw [base2 k]
  simp [IntOp.addi, BitVec.ofNat_add]

/-- The selection matrix of the scattering pass, entry by entry. -/
theorem sel2 (v5 : IVec S1024 32) (k : Fin k0_t2_loop.trips) (r e : Fin 1024) :
    (truncf .bf16 (sitofp (F := Ideal) .f32 (extui 32 (cmpi .eq
        (broadcastTo S1024x1024 (shapeCast S1x1024 v5 shapeCasts_S1024_S1x1024) broadcasts_S1x1024_S1024x1024)
        (addi (broadcast S1024x1024 (Scalar.muli (Scalar.addi 0#32 (Scalar.muli (Scf.iv 0#32 1#32 k) 1#32)) 1024#32)) (iota .tc S1024x1024 32 [0] iota_S1024x1024_d0_w32))) natLt_1_32)) bitsLt_bf16_f32) (ix2 r e)
      = hot (v5 (ix1 e)) (BitVec.ofNat 32 (1024 * k.val + r.val)) := by
  rw [truncf_apply, sitofp_apply, extui_apply, cmpi_apply, colsel, nodeword2, hot_eq]

/-- A value held per row and spread across the 128 features reads that row's value. -/
theorem rowspread (v7 : FVec Ideal S1024 .f32) (e : Fin 1024) (d : Fin 128) :
    broadcastTo S1024x128 (shapeCast S1024x1 v7 shapeCasts_S1024_S1024x1) broadcasts_S1024x1_S1024x128 (ix2 e d) = v7 (ix1 e) := by
  rw [broadcastTo_apply _ _ (ix2 e d) (ix2 e (0 : Fin 1)) (fun a => by match a with | ⟨0, _⟩ => rfl | ⟨1, _⟩ => rfl)]
  exact shapeCast_apply v7 _ (ix2 e 0) (ix1 e) (by rw [Shape.rowMajor_val_one, Shape.rowMajor_val_two]; simp)

/-- THE SCATTERING PASS, one tile: to what the output tile held, node `1024 k + r` adds the messages of the block's
    edges whose destination word names it — a sum over the block's 1024 edges of a selection entry times the edge's
    message (its gathered feature times its weight). -/
theorem pay4_apply (v5 : Vec Ideal S1024 .i32) (v7 : Vec Ideal S1024 .f32) (v14 : Vec Ideal S1024x128 .f32)
    (k : Fin k0_t2_loop.trips) (v35 : Vec Ideal S1x1024x128 .f32) (r : Fin 1024) (d : Fin 128) :
    k0_pay4 (F := Ideal) v5 v7 v14 k v35 (ix3 (0 : Fin 1) r d)
      = v35 (ix3 (0 : Fin 1) r d)
        + ∑ e : Fin 1024, hot (v5 (ix1 e)) (BitVec.ofNat 32 (1024 * k.val + r.val)) * (v14 (ix2 e d) * v7 (ix1 e)) := by
  unfold k0_pay4
  simp only [shapeCast_self]
  rw [shapeCast_apply _ _ (ix3 (0 : Fin 1) r d) (ix2 r d) (by rw [Shape.rowMajor_val_two, Shape.rowMajor_val_three]; simp)]
  rw [addf_apply]
  rw [shapeCast_apply v35 _ (ix2 r d) (ix3 (0 : Fin 1) r d) (by rw [Shape.rowMajor_val_two, Shape.rowMajor_val_three]; simp)]
  simp only [matmul]
  rw [Ideal.matmul_constant_zero_apply]
  rw [← Equiv.sum_comp (contrEquiv1 dd 1024 rfl rfl).symm]
  refine congrArg (v35 (ix3 (0 : Fin 1) r d) + ·) (Finset.sum_congr rfl fun e _ => ?_)
  rw [lhs_at, rhs_at, Equiv.apply_symm_apply]
  refine congrArg₂ (· * ·) (sel2 v5 k r e) ?_
  show v14 (ix2 e d) * _ = _
  exact congrArg (v14 (ix2 e d) * ·) (rowspread v7 e d)

end Cert.KernelIdeal.Payload
end
-- ==== Proof.LoopValue.lean ====
/-
  What the kernel body's two counted loops leave in their buffers, as recurrences on the buffers' contents.

  The gathering loop runs over ten tiles of 1024 nodes; each trip stores the whole scratch block: the trip's payload of
  the tile of node features at the trip's offset and of what the scratch held. The scattering loop runs over the same ten
  tiles of the output block; each trip stores tile `k` only: the trip's payload of what that tile held. Each trip's one
  store is read off the trip's definition once; after that the contents after `k + 1` trips are stated from the
  contents after `k`, for any float instance.
-/
import proofs.«114975_j16947940950524_2_alg».proof.Proof.Gen.KernelIdeal.Frame
import Idealize.ShloMosaic.Lib.ValueIdx
import Idealize.ShloMosaic.Lib.Pipeline.Value
import Idealize.ShloMosaic.Lib.WritesUnit

set_option maxRecDepth 16384

noncomputable section

namespace Cert.KernelIdeal.LoopValue

open Cert.KernelIdeal Cert.KernelIdeal.Gen
open Idealize.ShloMosaic Idealize.ShloMosaic.TcCoe Idealize.ShloMosaic.ValueIdx Idealize.SL.Sem

variable {F : FTy → Type} [FloatOps F]

variable (𝒱 : Variants) (bd : Option 𝒱.V) (c : Dev nD) (i : grid0.Coords) (arg2 : Memref sig .tc .vmem S1024 .i32) (harg2 : arg2.IsWhole) (arg3 : Memref sig .tc .vmem S1024 .i32) (harg3 : arg3.IsWhole) (arg4 : Memref sig .tc .vmem S1024 .f32) (harg4 : arg4.IsWhole) (arg5 : Memref sig .tc .vmem S10240x128 .bf16) (harg5 : arg5.IsWhole) (arg6 : Memref sig .tc .vmem S1x10240x128 .f32) (harg6 : arg6.IsWhole) (arg7 : Memref sig .tc .vmem S1024x128 .f32) (harg7 : arg7.IsWhole)

theorem hz2 : (![0, 0] : Fin 2 → Nat) = fun _ => 0 := funext fun a => by fin_cases a <;> rfl

/-- One trip of the gathering loop leaves one store: the whole scratch block, holding the trip's payload of the
    feature tile at the trip's offset and of what the scratch held. -/
theorem trip1_eq (v3 : Vec F S1024 .i32) (X5 : BufTy.Contents (Elt F) arg5.view.ty) (k : Fin k0_t1_loop.trips)
    (f : BufTy.Contents (Elt F) arg7.view.ty) :
    tripL_k0_t1 (F := F) 𝒱 c bd i arg2 harg2 arg3 harg3 arg4 harg4 arg5 harg5 arg6 harg6 arg7 harg7 v3 X5 k f
      = [⟨Rect.unit ![0, 0] S1024x128.size inb_S1024x128_S1024x128_0_0,
          k0_pay3 v3 k (View.readAt (Elt F) arg5.view (Rect.unit (s := S10240x128) (k0_off1 k) S1024x128.size (k0_off1_inb k)).toLoadRect X5)
            (View.readAt (Elt F) arg7.view (Rect.unit ![0, 0] S1024x128.size inb_S1024x128_S1024x128_0_0).toLoadRect f)⟩] := by
  unfold tripL_k0_t1 trip_k0_t1
  rfl

/-- What the scratch block reads after the first `k` trips, from contents `G7` at loop entry. -/
def gathered (v3 : Vec F S1024 .i32) (X5 : BufTy.Contents (Elt F) arg5.view.ty) (G7 : BufTy.Contents (Elt F) arg7.view.ty)
    (k : ℕ) : S1024x128.Idx → F .f32 :=
  arg7.view.read (Elt F) (arg7.view.writes (Elt F) G7 (pb_k0_t1 (F := F) 𝒱 c bd i arg2 harg2 arg3 harg3 arg4 harg4 arg5 harg5 arg6 harg6 arg7 harg7 v3 X5 G7 k))

theorem gathered_zero (v3 : Vec F S1024 .i32) (X5 : BufTy.Contents (Elt F) arg5.view.ty) (G7 : BufTy.Contents (Elt F) arg7.view.ty) :
    gathered 𝒱 bd c i arg2 harg2 arg3 harg3 arg4 harg4 arg5 harg5 arg6 harg6 arg7 harg7 v3 X5 G7 0 = arg7.view.read (Elt F) G7 := rfl

theorem gathered_succ (v3 : Vec F S1024 .i32) (X5 : BufTy.Contents (Elt F) arg5.view.ty) (G7 : BufTy.Contents (Elt F) arg7.view.ty)
    (k : Fin k0_t1_loop.trips) :
    gathered 𝒱 bd c i arg2 harg2 arg3 harg3 arg4 harg4 arg5 harg5 arg6 harg6 arg7 harg7 v3 X5 G7 (k.val + 1)
      = k0_pay3 v3 k (View.ld (arg5.view.read (Elt F) X5) (Rect.unit (s := S10240x128) (k0_off1 k) S1024x128.size (k0_off1_inb k)))
          (gathered 𝒱 bd c i arg2 harg2 arg3 harg3 arg4 harg4 arg5 harg5 arg6 harg6 arg7 harg7 v3 X5 G7 k.val) := by
  unfold gathered
  rw [pb_k0_t1_succ, trip1_eq, View.writes_append]
  funext y
  refine (View.read_writes_cons_unit_of_mem _ _ _ _ [] y y rfl (fun a => by fin_cases a <;> simp)).trans ?_
  rw [View.readAt_eq_ld, View.readAt_eq_ld, View.ld_unit_zero (S := S1024x128) hz2]

theorem trips2_le (k : Fin k0_t2_loop.trips) : k.val < 10 := Nat.lt_of_lt_of_le k.isLt k0_t2_abs.2.1

/-- One trip of the scattering loop leaves one store: tile `k` of the output block, holding the trip's payload of
    what that tile held. -/
theorem trip2_eq (v5 : Vec F S1024 .i32) (v7 : Vec F S1024 .f32) (v14 : Vec F S1024x128 .f32) (k : Fin k0_t2_loop.trips)
    (f : BufTy.Contents (Elt F) arg6.view.ty) :
    tripL_k0_t2 (F := F) 𝒱 c bd i arg2 harg2 arg3 harg3 arg4 harg4 arg5 harg5 arg6 harg6 arg7 harg7 v5 v7 v14 k f
      = [⟨Rect.unit (s := S1x10240x128) (k0_off2 k) S1x1024x128.size (k0_off2_inb k),
          k0_pay4 v5 v7 v14 k (View.readAt (Elt F) arg6.view (Rect.unit (s := S1x10240x128) (k0_off2 k) S1x1024x128.size (k0_off2_inb k)).toLoadRect f)⟩] := by
  unfold tripL_k0_t2 trip_k0_t2
  rfl

/-- What the output block reads after the first `k` trips, from contents `G6` at loop entry. -/
def scattered (v5 : Vec F S1024 .i32) (v7 : Vec F S1024 .f32) (v14 : Vec F S1024x128 .f32) (G6 : BufTy.Contents (Elt F) arg6.view.ty)
    (k : ℕ) : Vec F S1x10240x128 .f32 :=
  arg6.view.read (Elt F) (arg6.view.writes (Elt F) G6 (pb_k0_t2 (F := F) 𝒱 c bd i arg2 harg2 arg3 harg3 arg4 harg4 arg5 harg5 arg6 harg6 arg7 harg7 v5 v7 v14 G6 k))

theorem scattered_zero (v5 : Vec F S1024 .i32) (v7 : Vec F S1024 .f32) (v14 : Vec F S1024x128 .f32) (G6 : BufTy.Contents (Elt F) arg6.view.ty) :
    scattered 𝒱 bd c i arg2 harg2 arg3 harg3 arg4 harg4 arg5 harg5 arg6 harg6 arg7 harg7 v5 v7 v14 G6 0 = arg6.view.read (Elt F) G6 := rfl

/-- Row `r` of tile `k` of a block is row `1024 k + r` of the block. -/
theorem ld_tile2 (X : Vec F S1x10240x128 .f32) (k : Fin k0_t2_loop.trips) (r : Fin 1024) (d : Fin 128) :
    View.ld (Val := Elt F) (e' := .f32) X (Rect.unit (s := S1x10240x128) (k0_off2 k) S1x1024x128.size (k0_off2_inb k)) (ix3 (0 : Fin 1) r d)
      = X (ix3 (0 : Fin 1) (⟨1024 * k.val + r.val, by have := trips2_le k; omega⟩ : Fin 10240) d) := by
  show X _ = X _
  refine congrArg X (funext fun a => Fin.ext ?_)
  have h := k0_off2_eq k
  match a with
  | ⟨0, _⟩ => show k0_off2 k 0 + 1 * 0 = 0; rw [h]; rfl
  | ⟨1, _⟩ => show k0_off2 k 1 + 1 * r.val = 1024 * k.val + r.val; rw [h]; simp
  | ⟨2, _⟩ => show k0_off2 k 2 + 1 * d.val = d.val; rw [h]; simp

/-- Inside tile `k` the trip leaves its payload. -/
theorem scattered_succ_in (v5 : Vec F S1024 .i32) (v7 : Vec F S1024 .f32) (v14 : Vec F S1024x128 .f32) (G6 : BufTy.Contents (Elt F) arg6.view.ty)
    (k : Fin k0_t2_loop.trips) (r : Fin 1024) (d : Fin 128) :
    scattered 𝒱 bd c i arg2 harg2 arg3 harg3 arg4 harg4 arg5 harg5 arg6 harg6 arg7 harg7 v5 v7 v14 G6 (k.val + 1) (ix3 (0 : Fin 1) (⟨1024 * k.val + r.val, by have := trips2_le k; omega⟩ : Fin 10240) d)
      = k0_pay4 v5 v7 v14 k (View.ld (Val := Elt F) (e' := .f32) (scattered 𝒱 bd c i arg2 harg2 arg3 harg3 arg4 harg4 arg5 harg5 arg6 harg6 arg7 harg7 v5 v7 v14 G6 k.val)
          (Rect.unit (s := S1x10240x128) (k0_off2 k) S1x1024x128.size (k0_off2_inb k))) (ix3 (0 : Fin 1) r d) := by
  unfold scattered
  rw [pb_k0_t2_succ, trip2_eq, View.writes_append]
  refine (View.read_writes_cons_unit_of_mem _ _ _ _ [] _ (ix3 (0 : Fin 1) r d) (k0_off2_eq k) (fun a => ?_)).trans ?_
  · match a with
    | ⟨0, _⟩ => rfl
    | ⟨1, _⟩ => rfl
    | ⟨2, _⟩ => show d.val = 0 + d.val; omega
  · rw [View.readAt_eq_ld]

/-- Outside tile `k` the trip changes nothing. -/
theorem scattered_succ_out (v5 : Vec F S1024 .i32) (v7 : Vec F S1024 .f32) (v14 : Vec F S1024x128 .f32) (G6 : BufTy.Contents (Elt F) arg6.view.ty)
    (k : Fin k0_t2_loop.trips) (n : Fin 10240) (d : Fin 128) (h : n.val < 1024 * k.val ∨ 1024 * k.val + 1024 ≤ n.val) :
    scattered 𝒱 bd c i arg2 harg2 arg3 harg3 arg4 harg4 arg5 harg5 arg6 harg6 arg7 harg7 v5 v7 v14 G6 (k.val + 1) (ix3 (0 : Fin 1) n d)
      = scattered 𝒱 bd c i arg2 harg2 arg3 harg3 arg4 harg4 arg5 harg5 arg6 harg6 arg7 harg7 v5 v7 v14 G6 k.val (ix3 (0 : Fin 1) n d) := by
  unfold scattered
  rw [pb_k0_t2_succ, trip2_eq, View.writes_append]
  exact View.read_writes_cons_unit_of_not_mem _ _ _ _ [] _ (k0_off2_eq k) (1 : Fin 3) h

end Cert.KernelIdeal.LoopValue
end
-- ==== Proof.Closed.lean ====
/-
  The kernel body's value at one grid point, in closed form on the extended reals.

  A selection row against 1024 consecutive node numbers picks out at most one of them, so the gathering loop over ten
  tiles leaves, in row `e` of the scratch block, the feature row of the node that edge `e`'s source word names (nothing if
  the word names no row of the padded feature block): the tiles' contributions never overlap, and the induction over the
  trips only records which tiles have been seen. The scattering loop adds to each of its ten tiles of the output block
  the sum, over the point's 1024 edges whose destination word names the row, of the edge's gathered feature times its
  weight. So a point leaves in the output block what the block held (zero at the first point of a core) plus, row by
  row, what its edges send.
-/
import proofs.«114975_j16947940950524_2_alg».proof.Proof.Payload
import proofs.«114975_j16947940950524_2_alg».proof.Proof.LoopValue

set_option maxRecDepth 16384

noncomputable section

namespace Cert.KernelIdeal.Closed

open Cert.KernelIdeal Cert.KernelIdeal.Gen Cert.KernelIdeal.Payload Cert.KernelIdeal.LoopValue
open Idealize.ShloMosaic Idealize.ShloMosaic.TcCoe Idealize.ShloMosaic.ValueIdx Idealize.SL.Sem
/-- Against the word of a number below 2³², the selection entry tests the word's value. -/
theorem hot_ofNat (w : BitVec 32) (n : ℕ) (hn : n < 2 ^ 32) :
    hot w (BitVec.ofNat 32 n) = if w.toNat = n then 1 else 0 := by
  unfold hot
  have key : w = BitVec.ofNat 32 n ↔ w.toNat = n := by
    constructor
    · rintro rfl
      rw [BitVec.toNat_ofNat]
      exact Nat.mod_eq_of_lt hn
    · intro h
      apply BitVec.eq_of_toNat_eq
      rw [BitVec.toNat_ofNat, Nat.mod_eq_of_lt hn]
      exact h
  by_cases h : w.toNat = n
  · rw [if_pos (key.mpr h), if_pos h]
  · rw [if_neg (fun h' => h (key.mp h')), if_neg h]

/-- A selection row against 1024 consecutive numbers picks out at most one of them: the word's own value, when it is
    among them. -/
theorem tile_sum (w : BitVec 32) (b : ℕ) (hb : b + 1024 ≤ 2 ^ 32) (g : ℕ → EReal) :
    ∑ kk : Fin 1024, hot w (BitVec.ofNat 32 (b + kk.val)) * g (b + kk.val)
      = if b ≤ w.toNat ∧ w.toNat < b + 1024 then g w.toNat else 0 := by
  by_cases h : b ≤ w.toNat ∧ w.toNat < b + 1024
  · rw [if_pos h]
    rw [Finset.sum_eq_single (⟨w.toNat - b, by omega⟩ : Fin 1024)]
    · have e : b + (w.toNat - b) = w.toNat := by omega
      show hot w (BitVec.ofNat 32 (b + (w.toNat - b))) * g (b + (w.toNat - b)) = _
      rw [e, hot_ofNat _ _ (by omega), if_pos rfl, one_mul]
    · intro kk _ hk
      have hlt := kk.isLt
      rw [hot_ofNat _ _ (by omega), if_neg, zero_mul]
      intro he
      exact hk (Fin.ext (by show kk.val = w.toNat - b; omega))
    · intro hn
      exact absurd (Finset.mem_univ _) hn
  · rw [if_neg h]
    refine Finset.sum_eq_zero fun kk _ => ?_
    have hlt := kk.isLt
    rw [hot_ofNat _ _ (by omega), if_neg (by omega), zero_mul]

theorem trips1 : k0_t1_loop.trips = 10 := by decide +kernel
theorem trips2 : k0_t2_loop.trips = 10 := by decide +kernel

variable (𝒱 : Variants) (bd : Option 𝒱.V) (c : Dev nD) (i : grid0.Coords) (arg2 : Memref sig .tc .vmem S1024 .i32) (harg2 : arg2.IsWhole) (arg3 : Memref sig .tc .vmem S1024 .i32) (harg3 : arg3.IsWhole) (arg4 : Memref sig .tc .vmem S1024 .f32) (harg4 : arg4.IsWhole) (arg5 : Memref sig .tc .vmem S10240x128 .bf16) (harg5 : arg5.IsWhole) (arg6 : Memref sig .tc .vmem S1x10240x128 .f32) (harg6 : arg6.IsWhole) (arg7 : Memref sig .tc .vmem S1024x128 .f32) (harg7 : arg7.IsWhole)

/-- Row `n` of a block of node features padded to 10240 rows; nothing beyond the block. -/
def rowAt (X : Vec Ideal S10240x128 .bf16) (n : ℕ) (d : Fin 128) : EReal :=
  if h : n < 10240 then X (ix2 (⟨n, h⟩ : Fin 10240) d) else 0

theorem trips1_lt (k : Fin k0_t1_loop.trips) : k.val < 10 := Nat.lt_of_lt_of_le k.isLt k0_t1_abs.2.1

/-- Row `kk` of tile `k` of the feature block is its row `1024 k + kk`. -/
theorem ld_tile1 (X : Vec Ideal S10240x128 .bf16) (k : Fin k0_t1_loop.trips) (kk : Fin 1024) (d : Fin 128) :
    View.ld (Val := Elt Ideal) (e' := .bf16) X (Rect.unit (s := S10240x128) (k0_off1 k) S1024x128.size (k0_off1_inb k)) (ix2 kk d)
      = rowAt X (1024 * k.val + kk.val) d := by
  have hk := trips1_lt k
  unfold rowAt
  rw [dif_pos (by omega)]
  show X _ = X _
  refine congrArg X (funext fun a => Fin.ext ?_)
  have h := k0_off1_eq k
  match a with
  | ⟨0, _⟩ => show k0_off1 k 0 + 1 * kk.val = 1024 * k.val + kk.val; rw [h]; simp
  | ⟨1, _⟩ => show k0_off1 k 1 + 1 * d.val = d.val; rw [h]; simp

/-- THE GATHERING LOOP in closed form: after the first `k` tiles, row `e` of the scratch block holds the feature row of
    the node that edge `e`'s word names if that node lies in those tiles, and nothing otherwise. -/
theorem gathered_closed (v3 : Vec Ideal S1024 .i32) (X5 : BufTy.Contents (Elt Ideal) arg5.view.ty)
    (G7 : BufTy.Contents (Elt Ideal) arg7.view.ty) (hG : arg7.view.read (Elt Ideal) G7 = fun _ => (0 : EReal)) :
    ∀ k : ℕ, k ≤ 10 → ∀ (e : Fin 1024) (d : Fin 128),
      gathered (F := Ideal) 𝒱 bd c i arg2 harg2 arg3 harg3 arg4 harg4 arg5 harg5 arg6 harg6 arg7 harg7 v3 X5 G7 k (ix2 e d)
        = if (v3 (ix1 e)).toNat < 1024 * k then rowAt (arg5.view.read (Elt Ideal) X5) (v3 (ix1 e)).toNat d else 0
  | 0, _, e, d => by
    rw [gathered_zero, hG]
    simp
  | k + 1, hk, e, d => by
    have hkt : k < k0_t1_loop.trips := by rw [trips1]; omega
    have hs := gathered_succ (F := Ideal) 𝒱 bd c i arg2 harg2 arg3 harg3 arg4 harg4 arg5 harg5 arg6 harg6 arg7 harg7 v3 X5 G7 ⟨k, hkt⟩
    have ih := gathered_closed v3 X5 G7 hG k (by omega) e d
    have ts := tile_sum (v3 (ix1 e)) (1024 * k) (by omega) (fun n => rowAt (arg5.view.read (Elt Ideal) X5) n d)
    beta_reduce at ts
    rw [show gathered (F := Ideal) 𝒱 bd c i arg2 harg2 arg3 harg3 arg4 harg4 arg5 harg5 arg6 harg6 arg7 harg7 v3 X5 G7 (k + 1) = _ from hs, pay3_apply, ih]
    refine (congrArg (_ + ·) ((Finset.sum_congr rfl fun kk _ => congrArg (hot (v3 (ix1 e)) (BitVec.ofNat 32 (1024 * k + kk.val)) * ·)
      (ld_tile1 (arg5.view.read (Elt Ideal) X5) ⟨k, hkt⟩ kk d)).trans ts)).trans ?_
    split_ifs <;> first | (exfalso; omega) | simp

/-- What the block's 1024 edges send to node `n` in feature `d`: each edge whose destination word is `n` sends its
    gathered feature times its weight. -/
def tileAdd (v5 : Vec Ideal S1024 .i32) (v7 : Vec Ideal S1024 .f32) (v14 : Vec Ideal S1024x128 .f32) (n : ℕ) (d : Fin 128) : EReal :=
  ∑ e : Fin 1024, hot (v5 (ix1 e)) (BitVec.ofNat 32 n) * (v14 (ix2 e d) * v7 (ix1 e))

theorem tile_row_lt (k : ℕ) (hk : k + 1 ≤ 10) (r : Fin 1024) : 1024 * k + r.val < 10240 := by
  have := r.isLt
  omega

/-- THE SCATTERING LOOP in closed form: after the first `k` tiles, the rows of those tiles have received what the
    block's edges send them; the others hold what they held. -/
theorem scattered_closed (v5 : Vec Ideal S1024 .i32) (v7 : Vec Ideal S1024 .f32) (v14 : Vec Ideal S1024x128 .f32)
    (G6 : BufTy.Contents (Elt Ideal) arg6.view.ty) :
    ∀ k : ℕ, k ≤ 10 → ∀ (n : Fin 10240) (d : Fin 128),
      scattered (F := Ideal) 𝒱 bd c i arg2 harg2 arg3 harg3 arg4 harg4 arg5 harg5 arg6 harg6 arg7 harg7 v5 v7 v14 G6 k (ix3 (0 : Fin 1) n d)
        = arg6.view.read (Elt Ideal) G6 (ix3 (0 : Fin 1) n d) + (if n.val < 1024 * k then tileAdd v5 v7 v14 n.val d else 0)
  | 0, _, n, d => by
    rw [scattered_zero]
    simp
  | k + 1, hk, n, d => by
    have hkt : k < k0_t2_loop.trips := by rw [trips2]; omega
    by_cases hin : 1024 * k ≤ n.val ∧ n.val < 1024 * k + 1024
    · obtain ⟨r, rfl⟩ : ∃ r : Fin 1024, n = (⟨1024 * k + r.val, tile_row_lt k hk r⟩ : Fin 10240) :=
        ⟨⟨n.val - 1024 * k, by omega⟩, Fin.ext (by show n.val = 1024 * k + (n.val - 1024 * k); omega)⟩
      have hs := scattered_succ_in (F := Ideal) 𝒱 bd c i arg2 harg2 arg3 harg3 arg4 harg4 arg5 harg5 arg6 harg6 arg7 harg7 v5 v7 v14 G6 ⟨k, hkt⟩ r d
      have ih := scattered_closed v5 v7 v14 G6 k (by omega) (⟨1024 * k + r.val, tile_row_lt k hk r⟩ : Fin 10240) d
      rw [show scattered (F := Ideal) 𝒱 bd c i arg2 harg2 arg3 harg3 arg4 harg4 arg5 harg5 arg6 harg6 arg7 harg7 v5 v7 v14 G6 (k + 1) (ix3 (0 : Fin 1) (⟨1024 * k + r.val, tile_row_lt k hk r⟩ : Fin 10240) d) = _ from hs,
        pay4_apply, ld_tile2, ih]
      have h1 : ¬(1024 * k + r.val < 1024 * k) := by omega
      have h2 : 1024 * k + r.val < 1024 * (k + 1) := by have := r.isLt; omega
      simp only [h1, h2, if_false, if_true, add_zero]
      rfl
    · have hs := scattered_succ_out (F := Ideal) 𝒱 bd c i arg2 harg2 arg3 harg3 arg4 harg4 arg5 harg5 arg6 harg6 arg7 harg7 v5 v7 v14 G6 ⟨k, hkt⟩ n d (by show n.val < 1024 * k ∨ 1024 * k + 1024 ≤ n.val; omega)
      have ih := scattered_closed v5 v7 v14 G6 k (by omega) n d
      rw [show scattered (F := Ideal) 𝒱 bd c i arg2 harg2 arg3 harg3 arg4 harg4 arg5 harg5 arg6 harg6 arg7 harg7 v5 v7 v14 G6 (k + 1) (ix3 (0 : Fin 1) n d) = _ from hs, ih]
      by_cases hlt : n.val < 1024 * k
      · rw [if_pos hlt, if_pos (by omega)]
      · rw [if_neg hlt, if_neg (by omega)]

theorem hz1 : (![0] : Fin 1 → Nat) = fun _ => 0 := funext fun a => by fin_cases a; rfl
theorem hz3 : (![0, 0, 0] : Fin 3 → Nat) = fun _ => 0 := funext fun a => by fin_cases a <;> rfl

/-- A whole-block load of a 1024-entry buffer holding `x` reads `x`. -/
theorem load1 {el : EltTy} (a : Memref sig .tc .vmem S1024 el) (h : a.IsWhole) (x : Vec Ideal S1024 el) :
    View.readAt (Elt Ideal) a.view (Rect.unit ![0] S1024.size inb_S1024_S1024_0).toLoadRect (h.unread x) = x := by
  rw [View.readAt_eq_ld, h.read_unread, View.ld_unit_zero (S := S1024) hz1]

/-- The features the block's edges gather: row `e` is the feature row of the node edge `e`'s source word names. -/
def gath (x0 : Vec Ideal S1024 .i32) (x3 : Vec Ideal S10240x128 .bf16) : Vec Ideal S1024x128 .f32 :=
  fun j => rowAt x3 (x0 (ix1 (j 0))).toNat (j 1)

/-- The scratch block reads zero after its zero store. -/
theorem zero7 : arg7.view.read (Elt Ideal) (arg7.view.writes (Elt Ideal) arg7.view.junk [(⟨Rect.unit ![0, 0] S1024x128.size inb_S1024x128_S1024x128_0_0, k0_pay2 (F := Ideal)⟩ : View.Piece (Elt Ideal) S1024x128 .f32)]) = fun _ => (0 : EReal) := by
  funext y
  refine (View.read_writes_cons_unit_of_mem _ _ _ _ [] y y rfl (fun a => by fin_cases a <;> simp)).trans ?_
  exact Ideal.ofBits_zero_f32

/-- The output block reads zero after its zero store. -/
theorem zero6 : arg6.view.read (Elt Ideal) (arg6.view.writes (Elt Ideal) arg6.view.junk [(⟨Rect.unit ![0, 0, 0] S1x10240x128.size inb_S1x10240x128_S1x10240x128_0_0_0, k0_pay1 (F := Ideal)⟩ : View.Piece (Elt Ideal) S1x10240x128 .f32)]) = fun _ => (0 : EReal) := by
  funext y
  refine (View.read_writes_cons_unit_of_mem _ _ _ _ [] y y rfl (fun a => by fin_cases a <;> simp)).trans ?_
  exact Ideal.ofBits_zero_f32

/-- After the zero store and the whole gathering loop, the scratch block holds the gathered features. -/
theorem v14_eq (x0 : Vec Ideal S1024 .i32) (x3 : Vec Ideal S10240x128 .bf16) (T : ℕ) (hT : T = 10) :
    View.readAt (Elt Ideal) arg7.view (Rect.unit ![0, 0] S1024x128.size inb_S1024x128_S1024x128_0_0).toLoadRect
      (arg7.view.writes (Elt Ideal) arg7.view.junk
        (pb_k0_t1 (F := Ideal) 𝒱 c bd i arg2 harg2 arg3 harg3 arg4 harg4 arg5 harg5 arg6 harg6 arg7 harg7
            (View.readAt (Elt Ideal) arg2.view (Rect.unit ![0] S1024.size inb_S1024_S1024_0).toLoadRect (harg2.unread x0))
            (harg5.unread x3) (arg7.view.writes (Elt Ideal) arg7.view.junk [(⟨Rect.unit ![0, 0] S1024x128.size inb_S1024x128_S1024x128_0_0, k0_pay2 (F := Ideal)⟩ : View.Piece (Elt Ideal) S1024x128 .f32)]) T ++ [(⟨Rect.unit ![0, 0] S1024x128.size inb_S1024x128_S1024x128_0_0, k0_pay2 (F := Ideal)⟩ : View.Piece (Elt Ideal) S1024x128 .f32)]))
      = gath x0 x3 := by
  subst hT
  rw [load1 arg2 harg2 x0, View.writes_append, View.readAt_eq_ld, View.ld_unit_zero (S := S1024x128) hz2]
  funext j
  obtain ⟨e, d, rfl⟩ : ∃ (e : Fin 1024) (d : Fin 128), j = ix2 e d := ⟨j 0, j 1, eq_ix2 j⟩
  have h := gathered_closed 𝒱 bd c i arg2 harg2 arg3 harg3 arg4 harg4 arg5 harg5 arg6 harg6 arg7 harg7 x0 (harg5.unread x3) _ (zero7 arg7) 10 le_rfl e d
  unfold gathered at h
  rw [h, harg5.read_unread]
  show _ = rowAt x3 (x0 (ix1 e)).toNat d
  by_cases hlt : (x0 (ix1 e)).toNat < 1024 * 10
  · rw [if_pos hlt]
  · rw [if_neg hlt]
    unfold rowAt
    rw [dif_neg (by omega)]

theorem tileAdd_congr {v5 v5' : Vec Ideal S1024 .i32} {v7 v7' : Vec Ideal S1024 .f32} {v14 v14' : Vec Ideal S1024x128 .f32}
    (h5 : v5 = v5') (h7 : v7 = v7') (h14 : v14 = v14') (n : ℕ) (d : Fin 128) :
    tileAdd v5 v7 v14 n d = tileAdd v5' v7' v14' n d := by
  subst h5 h7 h14
  rfl

/-- The whole scattering loop over a block holding `xo4`: every row has received what the block's edges send it. -/
theorem outB_core (v5 : Vec Ideal S1024 .i32) (v7 : Vec Ideal S1024 .f32) (v14 : Vec Ideal S1024x128 .f32)
    (xo4 : Vec Ideal S1x10240x128 .f32) (T : ℕ) (hT : T = 10) (n : Fin 10240) (d : Fin 128) :
    arg6.view.read (Elt Ideal) (arg6.view.writes (Elt Ideal) (harg6.unread xo4)
        (pb_k0_t2 (F := Ideal) 𝒱 c bd i arg2 harg2 arg3 harg3 arg4 harg4 arg5 harg5 arg6 harg6 arg7 harg7 v5 v7 v14 (harg6.unread xo4) T)) (ix3 (0 : Fin 1) n d)
      = xo4 (ix3 (0 : Fin 1) n d) + tileAdd v5 v7 v14 n.val d := by
  subst hT
  have h := scattered_closed 𝒱 bd c i arg2 harg2 arg3 harg3 arg4 harg4 arg5 harg5 arg6 harg6 arg7 harg7 v5 v7 v14 (harg6.unread xo4) 10 le_rfl n d
  unfold scattered at h
  rw [h, harg6.read_unread, if_pos (by have := n.isLt; omega)]

/-- The same over a block just zeroed. -/
theorem outA_core (v5 : Vec Ideal S1024 .i32) (v7 : Vec Ideal S1024 .f32) (v14 : Vec Ideal S1024x128 .f32)
    (T : ℕ) (hT : T = 10) (n : Fin 10240) (d : Fin 128) :
    arg6.view.read (Elt Ideal) (arg6.view.writes (Elt Ideal) arg6.view.junk
        (pb_k0_t2 (F := Ideal) 𝒱 c bd i arg2 harg2 arg3 harg3 arg4 harg4 arg5 harg5 arg6 harg6 arg7 harg7 v5 v7 v14 (arg6.view.writes (Elt Ideal) arg6.view.junk [(⟨Rect.unit ![0, 0, 0] S1x10240x128.size inb_S1x10240x128_S1x10240x128_0_0_0, k0_pay1 (F := Ideal)⟩ : View.Piece (Elt Ideal) S1x10240x128 .f32)]) T ++ [(⟨Rect.unit ![0, 0, 0] S1x10240x128.size inb_S1x10240x128_S1x10240x128_0_0_0, k0_pay1 (F := Ideal)⟩ : View.Piece (Elt Ideal) S1x10240x128 .f32)])) (ix3 (0 : Fin 1) n d)
      = tileAdd v5 v7 v14 n.val d := by
  subst hT
  rw [View.writes_append]
  have h := scattered_closed 𝒱 bd c i arg2 harg2 arg3 harg3 arg4 harg4 arg5 harg5 arg6 harg6 arg7 harg7 v5 v7 v14 (arg6.view.writes (Elt Ideal) arg6.view.junk [(⟨Rect.unit ![0, 0, 0] S1x10240x128.size inb_S1x10240x128_S1x10240x128_0_0_0, k0_pay1 (F := Ideal)⟩ : View.Piece (Elt Ideal) S1x10240x128 .f32)]) 10 le_rfl n d
  unfold scattered at h
  rw [h, zero6 arg6, if_pos (by have := n.isLt; omega), zero_add]

open Idealize.ShloMosaic.Tactic in
/-- A POINT THAT IS NOT THE FIRST OF ITS CORE: over what the output block held (`xo4`), every row receives what the
    point's 1024 edges send it. -/
theorem out_B (hc0 : ¬cond0_0 i) (x0 x1 : Vec Ideal S1024 .i32) (x2 : Vec Ideal S1024 .f32) (x3 : Vec Ideal S10240x128 .bf16)
    (xo4 : Vec Ideal S1x10240x128 .f32) (n : Fin 10240) (d : Fin 128) :
    out0_B_4 (F := Ideal) c i arg2 harg2 arg3 harg3 arg4 harg4 arg5 harg5 arg6 harg6 arg7 harg7 hc0 x0 x1 x2 x3 xo4 (ix3 (0 : Fin 1) n d)
      = xo4 (ix3 (0 : Fin 1) n d) + tileAdd x1 x2 (gath x0 x3) n.val d := by
  unfold out0_B_4
  rw [View.read_writes_of_cover VO0_4 VO0_4.junk arg6.view (harg6.unread xo4) _ (cover0_B_4 c i arg2 harg2 arg3 harg3 arg4 harg4 arg5 harg5 arg6 harg6 arg7 harg7 hc0 x0 x1 x2 x3 xo4)]
  unfold kernelRun0_B
  dsimp only
  sl_unfold_words
  refine (outB_core Variants.none none c i arg2 harg2 arg3 harg3 arg4 harg4 arg5 harg5 arg6 harg6 arg7 harg7 _ _ _ xo4 _ ?_ n d).trans ?_
  · decide +kernel
  · exact congrArg (xo4 (ix3 (0 : Fin 1) n d) + ·)
      (tileAdd_congr (load1 arg3 harg3 x1) (load1 arg4 harg4 x2) (v14_eq Variants.none none c i arg2 harg2 arg3 harg3 arg4 harg4 arg5 harg5 arg6 harg6 arg7 harg7 x0 x3 _ (by decide +kernel)) n.val d)

open Idealize.ShloMosaic.Tactic in
/-- THE FIRST POINT OF A CORE: the output block is zeroed first, so every row holds just what the point's edges send. -/
theorem out_A (hc0 : cond0_0 i) (x0 x1 : Vec Ideal S1024 .i32) (x2 : Vec Ideal S1024 .f32) (x3 : Vec Ideal S10240x128 .bf16)
    (n : Fin 10240) (d : Fin 128) :
    out0_A_4 (F := Ideal) c i arg2 harg2 arg3 harg3 arg4 harg4 arg5 harg5 arg6 harg6 arg7 harg7 hc0 x0 x1 x2 x3 (ix3 (0 : Fin 1) n d) = tileAdd x1 x2 (gath x0 x3) n.val d := by
  unfold out0_A_4
  rw [View.read_writes_of_cover VO0_4 VO0_4.junk arg6.view arg6.view.junk _ (cover0_A_4 c i arg2 harg2 arg3 harg3 arg4 harg4 arg5 harg5 arg6 harg6 arg7 harg7 hc0 x0 x1 x2 x3)]
  unfold kernelRun0_A
  dsimp only
  sl_unfold_words
  refine (outA_core Variants.none none c i arg2 harg2 arg3 harg3 arg4 harg4 arg5 harg5 arg6 harg6 arg7 harg7 _ _ _ _ ?_ n d).trans ?_
  · decide +kernel
  · exact tileAdd_congr (load1 arg3 harg3 x1) (load1 arg4 harg4 x2) (v14_eq Variants.none none c i arg2 harg2 arg3 harg3 arg4 harg4 arg5 harg5 arg6 harg6 arg7 harg7 x0 x3 _ (by decide +kernel)) n.val d

end Cert.KernelIdeal.Closed
end
-- ==== Proof.Accum.lean ====
/-
  What the output block holds after each grid point: a running sum over the points of one core.

  The grid is 2 cores by 313 edge blocks; point `t` works on edge block `t`. The output block of a core is zeroed at the
  core's first point (the points that are multiples of 313) and is not written back until the core's last point, so after
  point `t` it holds, row by row, the sum of what the edges of the core's points up to `t` send to that row.
-/
import proofs.«114975_j16947940950524_2_alg».proof.Proof.Closed

set_option maxRecDepth 16384

noncomputable section

namespace Cert.KernelIdeal.Accum

open Cert.KernelIdeal Cert.KernelIdeal.Gen Cert.KernelIdeal.Payload Cert.KernelIdeal.Closed
open Idealize.ShloMosaic Idealize.ShloMosaic.TcCoe Idealize.ShloMosaic.ValueIdx Idealize.SL.Sem

variable (m : (ℓ : Loc nD τ sig) → Buf (Elt Idealize.ShloMosaic.Ideal) ℓ) (c : Dev nD)

/-- What the 1024 edges of grid point `t` send to node `n` in feature `d`. -/
def contrib (t : Fin cfg0.N) (n : ℕ) (d : Fin 128) : EReal :=
  tileAdd (iblk m c 1 t) (iblk m c 2 t) (gath (iblk m c 0 t) (iblk m c 3 t)) n d

/-- The same for a point given by its number; nothing beyond the grid. -/
def contribN (t : ℕ) (n : ℕ) (d : Fin 128) : EReal :=
  if h : t < cfg0.N then contrib m c ⟨t, h⟩ n d else 0

/-- The running sum: restarted at each core's first point, otherwise the sum so far plus the point's own. -/
def chainN : ℕ → ℕ → Fin 128 → EReal
  | 0, n, d => contribN m c 0 n d
  | t + 1, n, d => if (t + 1) % 313 = 0 then contribN m c (t + 1) n d else chainN t n d + contribN m c (t + 1) n d

theorem chainN_zero (n : ℕ) (d : Fin 128) : chainN m c 0 n d = contribN m c 0 n d := rfl

theorem chainN_succ (t : ℕ) (n : ℕ) (d : Fin 128) :
    chainN m c (t + 1) n d = if (t + 1) % 313 = 0 then contribN m c (t + 1) n d else chainN m c t n d + contribN m c (t + 1) n d := rfl

theorem contribN_of_lt (t : ℕ) (h : t < cfg0.N) (n : ℕ) (d : Fin 128) : contribN m c t n d = contrib m c ⟨t, h⟩ n d := by
  unfold contribN
  rw [dif_pos h]

/-- After point `t` the output block holds the running sum — by induction on the point, over the two cases' values. -/
theorem outsAt_eq : ∀ (t : ℕ) (h : t < cfg0.N) (n : Fin 10240) (d : Fin 128),
    outsAt0 m c t h (ix3 (0 : Fin 1) n d) = chainN m c t n.val d
  | 0, h, n, d => by
    have e := congrFun (outsAt0_A m c ⟨0, h⟩ rfl) (ix3 (0 : Fin 1) n d)
    refine e.trans ((out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr rfl) (iblk m c 0 ⟨0, h⟩) (iblk m c 1 ⟨0, h⟩) (iblk m c 2 ⟨0, h⟩) (iblk m c 3 ⟨0, h⟩) n d).trans ?_)
    rw [chainN_zero, contribN_of_lt m c 0 h]
    rfl
  | t + 1, h, n, d => by
    by_cases h0 : (t + 1) % 313 = 0
    · have e := congrFun (outsAt0_A m c ⟨t + 1, h⟩ h0) (ix3 (0 : Fin 1) n d)
      refine e.trans ((out_A c (grid0.coords ⟨t + 1, h⟩) (ms0_0 ⟨t + 1, h⟩) (hs0_0 ⟨t + 1, h⟩) (ms0_1 ⟨t + 1, h⟩) (hs0_1 ⟨t + 1, h⟩) (ms0_2 ⟨t + 1, h⟩) (hs0_2 ⟨t + 1, h⟩) (ms0_3 ⟨t + 1, h⟩) (hs0_3 ⟨t + 1, h⟩) (ms0_4 ⟨t + 1, h⟩) (hs0_4 ⟨t + 1, h⟩) scM0_0 (Memref.isWhole_whole _) ((hcond0_0 ⟨t + 1, h⟩).mpr h0) (iblk m c 0 ⟨t + 1, h⟩) (iblk m c 1 ⟨t + 1, h⟩) (iblk m c 2 ⟨t + 1, h⟩) (iblk m c 3 ⟨t + 1, h⟩) n d).trans ?_)
      rw [chainN_succ, if_pos h0, contribN_of_lt m c (t + 1) h]
      rfl
    · have e := congrFun (outsAt0_B m c ⟨t + 1, h⟩ h0) (ix3 (0 : Fin 1) n d)
      refine e.trans ((out_B c (grid0.coords ⟨t + 1, h⟩) (ms0_0 ⟨t + 1, h⟩) (hs0_0 ⟨t + 1, h⟩) (ms0_1 ⟨t + 1, h⟩) (hs0_1 ⟨t + 1, h⟩) (ms0_2 ⟨t + 1, h⟩) (hs0_2 ⟨t + 1, h⟩) (ms0_3 ⟨t + 1, h⟩) (hs0_3 ⟨t + 1, h⟩) (ms0_4 ⟨t + 1, h⟩) (hs0_4 ⟨t + 1, h⟩) scM0_0 (Memref.isWhole_whole _) (fun hh => h0 ((hcond0_0 ⟨t + 1, h⟩).mp hh)) (iblk m c 0 ⟨t + 1, h⟩) (iblk m c 1 ⟨t + 1, h⟩) (iblk m c 2 ⟨t + 1, h⟩) (iblk m c 3 ⟨t + 1, h⟩)
        (outsAt0 m c t (Nat.lt_of_succ_lt h)) n d).trans ?_)
      rw [chainN_succ, if_neg h0, contribN_of_lt m c (t + 1) h, ← outsAt_eq t (Nat.lt_of_succ_lt h) n d]
      rfl

end Cert.KernelIdeal.Accum
end
-- ==== Proof.Edges.lean ====
/-
  One block of edges against the specification.

  Every edge list is padded with 1024 edges of source 0, destination 0 and weight zero, and the node features with 240
  zero rows. For a block starting at edge `b`, the sum over the block's 1024 edges of a selection entry times the gathered
  feature times the weight is the sum of the specification's messages over the block's real edges: a real edge's source
  word names a node (that is the precondition), so its gathered row is that node's feature row, and a selection entry
  times a value is the value where the destination word is the node and nothing elsewhere; a padding edge has weight
  zero and sends nothing.
-/
import proofs.«114975_j16947940950524_2_alg».proof.Proof.Closed
import proofs.«114975_j16947940950524_2_alg».proof.Proof.Spec

noncomputable section

namespace Cert.KernelIdeal.Edges

open Cert.KernelIdeal Cert.KernelIdeal.Payload Cert.KernelIdeal.Closed Cert.Propagate
open Idealize.ShloMosaic Idealize.ShloMosaic.ValueIdx

/-- The message of the edge numbered `E`, nothing for a number past the last edge. -/
def edgeTerm (x : SNodes.Idx → EReal) (ei : SEdgeIx.Idx → BitVec 32) (en : Fin 640000 → EReal) (n : Fin 10000) (d : Fin 128)
    (E : ℕ) : EReal :=
  if h : E < 640000 then message x ei en n d ⟨E, h⟩ else 0

theorem edgeTerm_pad (x : SNodes.Idx → EReal) (ei : SEdgeIx.Idx → BitVec 32) (en : Fin 640000 → EReal) (n : Fin 10000) (d : Fin 128)
    (E : ℕ) (h : 640000 ≤ E) : edgeTerm x ei en n d E = 0 := by
  unfold edgeTerm
  rw [dif_neg (by omega)]

theorem edgeTerm_fin (x : SNodes.Idx → EReal) (ei : SEdgeIx.Idx → BitVec 32) (en : Fin 640000 → EReal) (n : Fin 10000) (d : Fin 128)
    (e : Fin 640000) : edgeTerm x ei en n d e.val = message x ei en n d e := by
  unfold edgeTerm
  rw [dif_pos e.isLt]

theorem hot_mul (a b : BitVec 32) (y : EReal) : hot a b * y = if a = b then y else 0 := by
  unfold hot
  by_cases h : a = b
  · rw [if_pos h, if_pos h, one_mul]
  · rw [if_neg h, if_neg h, zero_mul]

/-- A block's tile sum is the sum of the specification's messages over the block. -/
theorem tileAdd_edges (x : SNodes.Idx → EReal) (ei : SEdgeIx.Idx → BitVec 32) (en : Fin 640000 → EReal)
    (hsrc : ∀ e : Fin 640000, (src ei e).toNat < 10000) (b : ℕ)
    (r cl : Vec Ideal S1024 .i32) (w : Vec Ideal S1024 .f32) (X : Vec Ideal S10240x128 .bf16)
    (hr : ∀ e : Fin 1024, r (ix1 e) = if h : b + e.val < 640000 then src ei ⟨b + e.val, h⟩ else 0#32)
    (hcl : ∀ e : Fin 1024, cl (ix1 e) = if h : b + e.val < 640000 then dst ei ⟨b + e.val, h⟩ else 0#32)
    (hw : ∀ e : Fin 1024, w (ix1 e) = if h : b + e.val < 640000 then en ⟨b + e.val, h⟩ else 0)
    (hX : ∀ (k : Fin 10240) (d : Fin 128), X (ix2 k d) = if h : k.val < 10000 then x (ix2 (⟨k.val, h⟩ : Fin 10000) d) else 0)
    (n : Fin 10000) (d : Fin 128) :
    tileAdd cl w (gath r X) n.val d = ∑ e : Fin 1024, edgeTerm x ei en n d (b + e.val) := by
  unfold tileAdd
  refine Finset.sum_congr rfl fun e _ => ?_
  show hot (cl (ix1 e)) (BitVec.ofNat 32 n.val) * (rowAt X (r (ix1 e)).toNat d * w (ix1 e)) = _
  by_cases h : b + e.val < 640000
  · rw [hr e, hcl e, hw e, dif_pos h, dif_pos h, dif_pos h, hot_mul]
    unfold edgeTerm
    rw [dif_pos h]
    unfold message
    have hs := hsrc ⟨b + e.val, h⟩
    have hrow : rowAt X (src ei ⟨b + e.val, h⟩).toNat d = x (ix2 (srcNode ei ⟨b + e.val, h⟩) d) := by
      unfold rowAt
      rw [dif_pos (by omega), hX, dif_pos hs]
      refine congrArg x (congrArg (fun k : Fin 10000 => ix2 k d) (Fin.ext ?_))
      show (src ei ⟨b + e.val, h⟩).toNat = min (src ei ⟨b + e.val, h⟩).toNat 9999
      omega
    rw [hrow]
  · rw [hw e, dif_neg h, mul_zero, mul_zero]
    unfold edgeTerm
    rw [dif_neg h]

end Cert.KernelIdeal.Edges
end
-- ==== Proof.KernelValue.lean ====
/-
  The kernel's program computes the specification.

  Its result is 0.9 · (slab 0 + slab 1) + 0.1 · x on the first 10000 rows, the two slabs being the two cores' output
  blocks. Each slab is written back once, after its core's last grid point, so it holds the running sum over the core's
  313 edge blocks; a block's sum is the sum of the specification's messages over the block's edges; and the two cores'
  626 blocks of 1024 edges are the 640000 edges followed by 1024 padding edges that send nothing. Addition on the
  extended reals is commutative and associative, so the regrouping needs no finiteness.
-/
import proofs.«114975_j16947940950524_2_alg».proof.Proof.Blocks
import proofs.«114975_j16947940950524_2_alg».proof.Proof.BlockSum
import proofs.«114975_j16947940950524_2_alg».proof.Proof.Accum
import proofs.«114975_j16947940950524_2_alg».proof.Proof.Edges
import proofs.«114975_j16947940950524_2_alg».proof.Proof.Gen.ReferenceIdeal.Read

set_option maxRecDepth 16384

noncomputable section

namespace Cert.KernelIdeal.KernelValue

open Cert.KernelIdeal Cert.KernelIdeal.Gen Cert.KernelIdeal.Payload Cert.KernelIdeal.Closed Cert.KernelIdeal.Accum Cert.KernelIdeal.Edges
open Cert.KernelIdeal.HostSide Cert.KernelIdeal.Blocks Cert.Propagate
open Idealize.ShloMosaic Idealize.ShloMosaic.TcCoe Idealize.ShloMosaic.ValueIdx Idealize.SL.Sem

variable (m : (ℓ : Loc nD τ sig) → Buf (Elt Idealize.ShloMosaic.Ideal) ℓ) (ρ : Dev nD → PrngReg)
/-- The run, read at the result buffer: it ends at what the host operations after the launch compute from the
    launch's output array, the arguments unchanged. -/
theorem run_result :
    θ_run defs (onTc (τ := τ) (main (F := Idealize.ShloMosaic.Ideal))) ⟨m, fun _ => 0, ρ⟩ (fun r => ∀ c : Dev nD,
      r.2.mem ((c.tc : Thread nD τ).loc main_v38) = Pipeline.afterTail₀ cfgs (dats m) 0 (V0 m) [hostOps1] c main_v38
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v38 (Pipeline.mem_restRefs_of main_v38 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-- The per-edge weight the kernel's program computes before the launch is the reference's own stage: the same
    operations of the same arguments. -/
theorem norm_eq (c : Dev nD) :
    (V m c main_v16 : FVec Idealize.ShloMosaic.Ideal S640000 .f32)
      = Cert.ReferenceIdeal.Read.val_main_v16 (F := Idealize.ShloMosaic.Ideal) (m ((c : Thread nD τ).loc main_arg1)) (m ((c : Thread nD τ).loc main_arg2)) := by
  rw [norm16_term]
  rfl

variable (c : Dev nD)

/-- The running sum of the grid points is the abstract restarting sum. -/
theorem chainN_eq_acc (n : ℕ) (d : Fin 128) :
    ∀ t : ℕ, chainN m c t n d = Cert.BlockSum.acc (fun t => contribN m c t n d) t
  | 0 => rfl
  | t + 1 => by rw [chainN_succ, Cert.BlockSum.acc_succ, chainN_eq_acc n d t]

/-- What the edges of block `t` send is the sum of the specification's messages over that block. -/
theorem contribN_edges (hsrc : ∀ e : Fin 640000, (src (m ((c : Thread nD τ).loc main_arg1)) e).toNat < 10000)
    (t : ℕ) (ht : t < 626) (n : Fin 10000) (d : Fin 128) :
    contribN m c t n.val d
      = ∑ e : Fin 1024, edgeTerm (m ((c : Thread nD τ).loc main_arg0)) (m ((c : Thread nD τ).loc main_arg1))
          (fun e => (V m c main_v16 : FVec Idealize.ShloMosaic.Ideal S640000 .f32) (ix1 e)) n d (1024 * t + e.val) := by
  have hN : t < cfg0.N := by rw [N626]; exact ht
  rw [contribN_of_lt m c t hN]
  exact tileAdd_edges (m ((c : Thread nD τ).loc main_arg0)) (m ((c : Thread nD τ).loc main_arg1))
    (fun e => (V m c main_v16 : FVec Idealize.ShloMosaic.Ideal S640000 .f32) (ix1 e)) hsrc (1024 * t)
    (iblk m c 0 ⟨t, hN⟩) (iblk m c 1 ⟨t, hN⟩) (iblk m c 2 ⟨t, hN⟩) (iblk m c 3 ⟨t, hN⟩)
    (fun e => blk_rows_src m c ⟨t, hN⟩ e) (fun e => blk_cols_dst m c ⟨t, hN⟩ e) (fun e => blk_norms_w m c ⟨t, hN⟩ e)
    (fun k d => blk_feats_x m c ⟨t, hN⟩ k d) n d

/-- One core's slab: the sum over its 313 blocks. -/
theorem slab_eq (hsrc : ∀ e : Fin 640000, (src (m ((c : Thread nD τ).loc main_arg1)) e).toNat < 10000)
    (cc : Fin 2) (n : Fin 10000) (d : Fin 128) :
    outArr m c (ix3 cc (⟨n.val, by have := n.isLt; omega⟩ : Fin 10240) d)
      = ∑ s ∈ Finset.range 313, ∑ e : Fin 1024, edgeTerm (m ((c : Thread nD τ).loc main_arg0)) (m ((c : Thread nD τ).loc main_arg1))
          (fun e => (V m c main_v16 : FVec Idealize.ShloMosaic.Ideal S640000 .f32) (ix1 e)) n d (1024 * (313 * cc.val + s) + e.val) := by
  rw [outArr_at, outsAt_eq, chainN_eq_acc, Cert.BlockSum.acc_last]
  refine Finset.sum_congr rfl fun s hs => ?_
  have hs' : s < 313 := Finset.mem_range.mp hs
  have hcc := cc.isLt
  exact contribN_edges m c hsrc (313 * cc.val + s) (by omega) n d

/-- THE KERNEL'S RESULT is the specification, with the per-edge weight the program's own. -/
theorem kernel_value (hsrc : ∀ e : Fin 640000, (src (m ((c : Thread nD τ).loc main_arg1)) e).toNat < 10000) :
    (Pipeline.afterTail₀ cfgs (dats m) 0 (V0 m) [hostOps1] c main_v38 : FVec Idealize.ShloMosaic.Ideal S10000x128 .f32)
      = result (Ideal.ofBits .f32 0x3F666666#32) (Ideal.ofBits .f32 0x3DCCCCCD#32) (m ((c : Thread nD τ).loc main_arg0))
          (m ((c : Thread nD τ).loc main_arg1)) (fun e => (V m c main_v16 : FVec Idealize.ShloMosaic.Ideal S640000 .f32) (ix1 e)) := by
  funext j
  obtain ⟨n, d, rfl⟩ : ∃ (n : Fin 10000) (d : Fin 128), j = ix2 n d := ⟨j 0, j 1, eq_ix2 j⟩
  rw [tail_at, result_apply, slab_eq m c hsrc 0 n d, slab_eq m c hsrc 1 n d]
  have h2 := Cert.BlockSum.two_halves
    (edgeTerm (m ((c : Thread nD τ).loc main_arg0)) (m ((c : Thread nD τ).loc main_arg1))
      (fun e => (V m c main_v16 : FVec Idealize.ShloMosaic.Ideal S640000 .f32) (ix1 e)) n d)
    (fun E hE => edgeTerm_pad _ _ _ n d E hE)
  have hrec : received (m ((c : Thread nD τ).loc main_arg0)) (m ((c : Thread nD τ).loc main_arg1))
      (fun e => (V m c main_v16 : FVec Idealize.ShloMosaic.Ideal S640000 .f32) (ix1 e)) n d
      = ∑ e : Fin 640000, edgeTerm (m ((c : Thread nD τ).loc main_arg0)) (m ((c : Thread nD τ).loc main_arg1))
          (fun e => (V m c main_v16 : FVec Idealize.ShloMosaic.Ideal S640000 .f32) (ix1 e)) n d e.val := by
    unfold received
    exact Finset.sum_congr rfl fun e _ => (edgeTerm_fin _ _ _ n d e).symm
  rw [hrec, ← h2]
  simp only [Nat.mul_zero, Nat.zero_add, Nat.mul_one, Fin.val_zero, Fin.val_one]

end Cert.KernelIdeal.KernelValue
end
-- ==== Proof.RefValue.lean ====
/-
  The reference program, read at an index, is the propagation step of the specification.

  The reference computes, for 10000 nodes with 128 features and 640000 edges (row = source word, col = destination word):
  messages (e, d) = x (row e, d) · w e, where w e is the edge's normalised weight (the stage main_v16, kept as it is);
  agg = the segment sum of the messages by col; result = 0.9 · agg + 0.1 · x (the two constants kept as their words).

  Two of its stages depend on the values of an index array. The gather x[row] reads, at (e, d), the operand at the row
  named by the index word of e read signed and clamped into [0, 9999]; where the source word names a node (its unsigned
  value is below 10000) this is the node `srcNode` of the specification, and the reference's wrap of negative words
  (row + 10000 where row < 0) leaves the word alone. The scatter-add into zeros reads, at (n, d), the sum of the update
  elements (e, d') that land there; an update lands at (n, d) exactly when the destination word of e read signed is n and
  d' = d, and for n < 10000 "read signed is n" says the word is the word of n. The sum over all update elements is the
  double sum over edges and features, and the inner sum over features has one term. No order or grouping of the edges and
  no range assumption on the destination words enters.
-/
import proofs.«114975_j16947940950524_2_alg».proof.Proof.Gen.ReferenceIdeal.Read
import proofs.«114975_j16947940950524_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open scoped BigOperators

/-! ## Words -/

/-- A 32-bit word read signed is the natural number `n` (below 2^31) exactly when it is the word of `n`. -/
theorem toInt_eq_iff (w : BitVec 32) (n : Nat) (hn : n < 2147483648) :
    w.toInt = (n : Int) ↔ w = BitVec.ofNat 32 n := by
  constructor
  · intro h
    apply BitVec.eq_of_toNat_eq
    rw [BitVec.toNat_ofNat]
    have := BitVec.toInt_eq_toNat_cond w
    have hw := w.isLt
    split at this <;> omega
  · rintro rfl
    rw [BitVec.toInt_eq_toNat_cond, BitVec.toNat_ofNat]
    split <;> omega

/-- A word whose unsigned value is below 2^31 is not negative read signed, and reads as its unsigned value. -/
theorem toInt_of_small (w : BitVec 32) (h : w.toNat < 2147483648) : w.toInt = (w.toNat : Int) := by
  rw [BitVec.toInt_eq_toNat_cond]
  split <;> omega

/-- Such a word is not below zero in the signed order. -/
theorem slt_zero_of_small (w : BitVec 32) (h : w.toNat < 2147483648) : IntOp.cmpi .slt w 0#32 = 0#1 := by
  unfold IntOp.cmpi
  show BitVec.ofBool (w.slt 0#32) = 0#1
  have : w.slt 0#32 = false := by
    rw [BitVec.slt, toInt_of_small w h]
    simp
  rw [this]; rfl

/-! ## The two rows of the edge list -/

/-- The source word of edge `e`, as the reference's stage main_v1 reads it. -/
theorem row_eq (x1 : (⟨S2x640000, .i32⟩ : BufTy).Contents (Elt Ideal)) (e : Fin 640000) :
    val_main_v1 (F := Ideal) x1 (ix1 e) = Cert.Propagate.src x1 e := by
  rw [val_main_v1_apply, val_main_v0_apply]
  unfold Cert.Propagate.src
  congr 1
  funext a
  match a with
  | ⟨0, _⟩ => rfl
  | ⟨1, _⟩ => exact Fin.ext (by show e.val % 640000 = e.val; have := e.isLt; omega)

/-- The destination word of edge `e`, as the reference's stage main_v3 reads it. -/
theorem col_eq (x1 : (⟨S2x640000, .i32⟩ : BufTy).Contents (Elt Ideal)) (e : Fin 640000) :
    val_main_v3 (F := Ideal) x1 (ix1 e) = Cert.Propagate.dst x1 e := by
  rw [val_main_v3_apply, val_main_v2_apply]
  unfold Cert.Propagate.dst
  congr 1
  funext a
  match a with
  | ⟨0, _⟩ => rfl
  | ⟨1, _⟩ => exact Fin.ext (by show e.val % 640000 = e.val; have := e.isLt; omega)

/-! ## Where a scattered update lands -/

/-- An update lands at operand index `i` exactly when, on every axis, its start plus its window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hc
      injection h with h
      subst h
      intro a
      have := (hc a).1
      show _ = ((Int.toNat _ : Nat) : Int)
      omega
    · exact absurd h (by simp)
  · intro h
    have hc : ∀ a, 0 ≤ d.start j idx a + (d.window j a : Int) ∧ d.start j idx a + (d.window j a : Int) < s.size a := by
      intro a
      have := (i a).isLt
      rw [h a]
      omega
    rw [dif_pos hc]
    congr 1
    funext a
    apply Fin.ext
    show Int.toNat _ = (i a).val
    rw [h a]
    omega

/-- The scatter of main_v29 (rows of a [640000,128] update array added into rows of a [10000,128] operand, the row
    named by a [640000,1] index array): update element (e, d') lands at operand element (n, d) exactly when the index word
    of row e, read signed, is n, and d' = d. -/
theorem scatter_lands_iff (idx : IVec S640000x1 32) (e : Fin 640000) (d' d : Fin 128) (n : Fin 10000) :
    scatter_S10000x128_S640000x1_S640000x128_1_0_0_1.resultIdx? (ix2 e d') idx = some (ix2 n d)
      ↔ (idx (ix2 e (0 : Fin 1))).toInt = (n.val : Int) ∧ d' = d := by
  rw [resultIdx?_eq_some_iff]
  have hs0 : scatter_S10000x128_S640000x1_S640000x128_1_0_0_1.start (ix2 e d') idx (0 : Fin 2) = (idx (ix2 e (0 : Fin 1))).toInt := by
    unfold ScatterDims.start
    rw [dif_pos (show (0 : Fin 2) ∈ scatter_S10000x128_S640000x1_S640000x128_1_0_0_1.scatterDimsToOperandDims from List.mem_singleton.mpr rfl)]
    congr 2
    funext b
    refine Fin.ext ?_
    match b with
    | ⟨0, _⟩ => rfl
    | ⟨1, _⟩ => rfl
  have hs1 : scatter_S10000x128_S640000x1_S640000x128_1_0_0_1.start (ix2 e d') idx (1 : Fin 2) = 0 := by
    unfold ScatterDims.start
    rw [dif_neg (show ¬ (1 : Fin 2) ∈ scatter_S10000x128_S640000x1_S640000x128_1_0_0_1.scatterDimsToOperandDims by decide)]
  have hw0 : scatter_S10000x128_S640000x1_S640000x128_1_0_0_1.window (ix2 e d') (0 : Fin 2) = 0 := by
    unfold ScatterDims.window
    rw [dif_neg (show ¬ (0 : Fin 2) ∈ scatter_S10000x128_S640000x1_S640000x128_1_0_0_1.sKept by decide)]
  have hw1 : scatter_S10000x128_S640000x1_S640000x128_1_0_0_1.window (ix2 e d') (1 : Fin 2) = d'.val := by
    unfold ScatterDims.window
    rw [dif_pos (show (1 : Fin 2) ∈ scatter_S10000x128_S640000x1_S640000x128_1_0_0_1.sKept by decide)]
    rfl
  rw [Fin.forall_fin_two, hs0, hs1, hw0, hw1]
  constructor
  · rintro ⟨h0, h1⟩
    refine ⟨by simpa using h0, Fin.ext ?_⟩
    have : ((d'.val : Nat) : Int) = ((d.val : Nat) : Int) := by simpa using h1
    omega
  · rintro ⟨h0, rfl⟩
    exact ⟨by simpa using h0, by simp⟩

/-! ## What the row gather reads -/

/-- The gather of main_v23 (rows of a [10000,128] operand picked by a [640000,1] index array): result element (e, d)
    is the operand at row the index word of e, read signed and clamped into [0, 9999], feature d. -/
theorem gather_row_apply {α : Type} (x : S10000x128.Idx → α) (idx : IVec S640000x1 32) (e : Fin 640000) (d : Fin 128) :
    Host.gather gather_S10000x128_S640000x1_S640000x128_1_0_n_n_0_1_1128 x idx (ix2 e d)
      = x (ix2 (⟨min (idx (ix2 e (0 : Fin 1))).toInt.toNat 9999, by omega⟩ : Fin 10000) d) := by
  unfold Host.gather
  congr 1
  funext a
  refine Fin.ext ?_
  match a with
  | ⟨0, _⟩ =>
    show gather_S10000x128_S640000x1_S640000x128_1_0_n_n_0_1_1128.start (ix2 e d) idx (0 : Fin 2)
        + gather_S10000x128_S640000x1_S640000x128_1_0_n_n_0_1_1128.batchCoord (ix2 e d) (0 : Fin 2)
        + gather_S10000x128_S640000x1_S640000x128_1_0_n_n_0_1_1128.offCoord (ix2 e d) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x128_S640000x1_S640000x128_1_0_n_n_0_1_1128.startIndexMap from List.mem_singleton.mpr rfl)]
    have hsi : gather_S10000x128_S640000x1_S640000x128_1_0_n_n_0_1_1128.siIdx (ix2 e d)
        ⟨List.idxOf (0 : Fin 2) gather_S10000x128_S640000x1_S640000x128_1_0_n_n_0_1_1128.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S10000x128_S640000x1_S640000x128_1_0_n_n_0_1_1128.start (ix2 e d) idx (1 : Fin 2)
        + gather_S10000x128_S640000x1_S640000x128_1_0_n_n_0_1_1128.batchCoord (ix2 e d) (1 : Fin 2)
        + gather_S10000x128_S640000x1_S640000x128_1_0_n_n_0_1_1128.offCoord (ix2 e d) (1 : Fin 2) = d.val
    rw [GatherDims.batchCoord_eq_zero _ _ _ List.not_mem_nil]
    have hst : gather_S10000x128_S640000x1_S640000x128_1_0_n_n_0_1_1128.start (ix2 e d) idx (1 : Fin 2) = 0 := by
      unfold GatherDims.start
      rw [dif_neg (show ¬ (1 : Fin 2) ∈ gather_S10000x128_S640000x1_S640000x128_1_0_n_n_0_1_1128.startIndexMap by decide)]
    have hoff : gather_S10000x128_S640000x1_S640000x128_1_0_n_n_0_1_1128.offCoord (ix2 e d) (1 : Fin 2) = d.val := by
      unfold GatherDims.offCoord
      rw [dif_pos (show (1 : Fin 2) ∈ gather_S10000x128_S640000x1_S640000x128_1_0_n_n_0_1_1128.sKept by decide)]
      rfl
    rw [hst, hoff]
    omega

/-! ## The stages between the inputs and the scatter -/

/-- Where the source word names a node, the reference's wrapped row word (row + 10000 if row < 0, else row) is the
    source word itself. -/
theorem wrapped_row_eq (x1 : (⟨S2x640000, .i32⟩ : BufTy).Contents (Elt Ideal)) (e : Fin 640000)
    (h : (Cert.Propagate.src x1 e).toNat < 10000) :
    val_main_v21 (F := Ideal) x1 (ix1 e) = Cert.Propagate.src x1 e := by
  rw [val_main_v21_apply, val_main_v18_apply, val_main_v17_apply, val_main_c_2_apply, row_eq,
    slt_zero_of_small _ (by omega), select_zero]

/-- The gathered source row: main_v23 at (e, d) is x at (the source node of e, d). -/
theorem gathered_eq (x0 : (⟨S10000x128, .f32⟩ : BufTy).Contents (Elt Ideal)) (x1 : (⟨S2x640000, .i32⟩ : BufTy).Contents (Elt Ideal))
    (e : Fin 640000) (d : Fin 128) (h : (Cert.Propagate.src x1 e).toNat < 10000) :
    val_main_v23 (F := Ideal) x0 x1 (ix2 e d) = x0 (ix2 (Cert.Propagate.srcNode x1 e) d) := by
  unfold val_main_v23
  rw [gather_row_apply]
  have hw : val_main_v22 (F := Ideal) x1 (ix2 e (0 : Fin 1)) = Cert.Propagate.src x1 e := by
    rw [val_main_v22_apply]
    have hi : idx_main_v22 (ix2 e (0 : Fin 1)) = ix1 e := by
      funext a; match a with | ⟨0, _⟩ => rfl
    rw [hi, wrapped_row_eq x1 e h]
  have hn : (⟨min (val_main_v22 (F := Ideal) x1 (ix2 e (0 : Fin 1))).toInt.toNat 9999, by omega⟩ : Fin 10000)
      = Cert.Propagate.srcNode x1 e := by
    unfold Cert.Propagate.srcNode
    apply Fin.ext
    show min (val_main_v22 (F := Ideal) x1 (ix2 e (0 : Fin 1))).toInt.toNat 9999 = min (Cert.Propagate.src x1 e).toNat 9999
    rw [hw, toInt_of_small _ (by omega), Int.toNat_natCast]
  rw [hn]

/-- The message array: main_v26 at (e, d) is the source's feature times the edge's weight (the stage main_v16). -/
theorem message_eq (x0 : (⟨S10000x128, .f32⟩ : BufTy).Contents (Elt Ideal)) (x1 : (⟨S2x640000, .i32⟩ : BufTy).Contents (Elt Ideal))
    (x2 : (⟨S640000, .f32⟩ : BufTy).Contents (Elt Ideal))
    (e : Fin 640000) (d : Fin 128) (h : (Cert.Propagate.src x1 e).toNat < 10000) :
    val_main_v26 (F := Ideal) x0 x1 x2 (ix2 e d)
      = x0 (ix2 (Cert.Propagate.srcNode x1 e) d) * val_main_v16 (F := Ideal) x1 x2 (ix1 e) := by
  rw [val_main_v26_apply, gathered_eq x0 x1 e d h, val_main_v25_apply, val_main_v24_apply]
  have hi : idx_main_v24 (idx_main_v25 (ix2 e d)) = ix1 e := by
    funext a; match a with | ⟨0, _⟩ => rfl
  rw [hi]
  rfl

/-- The scatter's index array at row e is the destination word of e. -/
theorem scatter_index_eq (x1 : (⟨S2x640000, .i32⟩ : BufTy).Contents (Elt Ideal)) (e : Fin 640000) :
    val_main_v28 (F := Ideal) x1 (ix2 e (0 : Fin 1)) = Cert.Propagate.dst x1 e := by
  rw [val_main_v28_apply]
  have hi : idx_main_v28 (ix2 e (0 : Fin 1)) = ix1 e := by
    funext a; match a with | ⟨0, _⟩ => rfl
  rw [hi, col_eq]

/-! ## The segment sum -/

/-- The scatter stage main_v29 at the ideal values is the exact accumulating scatter of the messages into the zero array. -/
theorem scatter_stage_eq (x0 : (⟨S10000x128, .f32⟩ : BufTy).Contents (Elt Ideal)) (x1 : (⟨S2x640000, .i32⟩ : BufTy).Contents (Elt Ideal))
    (x2 : (⟨S640000, .f32⟩ : BufTy).Contents (Elt Ideal)) :
    val_main_v29 (F := Ideal) x0 x1 x2
      = Ideal.hostScatterAdd scatter_S10000x128_S640000x1_S640000x128_1_0_0_1 (val_main_v27 (F := Ideal))
          (val_main_v28 (F := Ideal) x1) (val_main_v26 (F := Ideal) x0 x1 x2) := by
  unfold val_main_v29 Host.scatterAdd
  rw [Ideal.hostScatterAdd_def]

/-- An accumulating scatter read where the operand is zero: the sum of the updates that land there. -/
theorem hostScatterAdd_zero_apply {s si su : Shape} (d : ScatterDims s si su) {w : Nat} (x : s.Idx → EReal) (idx : IVec si w)
    (upd : su.Idx → EReal) (i : s.Idx) (hx : x i = 0) :
    Ideal.hostScatterAdd d x idx upd i = ∑ j ∈ Finset.univ.filter (fun j => d.resultIdx? j idx = some i), upd j := by
  unfold Ideal.hostScatterAdd
  rw [hx, zero_add]

/-- The array the scatter accumulates into (main_v27) is zero everywhere. -/
theorem zeros_apply (n : Fin 10000) (d : Fin 128) : val_main_v27 (F := Ideal) (ix2 n d) = 0 := by
  rw [val_main_v27_apply, val_main_cst_4_apply]
  exact Ideal.ofBits_zero_f32

/-- The scatter stage at (n, d), as a double sum over edges and features with the landing test spelt out. -/
theorem segment_sum_read (x0 : (⟨S10000x128, .f32⟩ : BufTy).Contents (Elt Ideal)) (x1 : (⟨S2x640000, .i32⟩ : BufTy).Contents (Elt Ideal))
    (x2 : (⟨S640000, .f32⟩ : BufTy).Contents (Elt Ideal)) (n : Fin 10000) (d : Fin 128) :
    val_main_v29 (F := Ideal) x0 x1 x2 (ix2 n d) = ∑ e : Fin 640000, ∑ d' : Fin 128,
      if (val_main_v28 (F := Ideal) x1 (ix2 e (0 : Fin 1))).toInt = (n.val : Int) ∧ d' = d
        then val_main_v26 (F := Ideal) x0 x1 x2 (ix2 e d') else 0 := by
  rw [scatter_stage_eq, hostScatterAdd_zero_apply _ _ _ _ _ (zeros_apply n d), Finset.sum_filter, sum_idx2]
  refine Finset.sum_congr rfl (fun e _ => Finset.sum_congr rfl (fun d' _ => ?_))
  exact if_congr (scatter_lands_iff _ e d' d n) rfl rfl

/-- The segment sum: main_v29 at (n, d) is everything node n receives in feature d. -/
theorem segment_sum_eq (x0 : (⟨S10000x128, .f32⟩ : BufTy).Contents (Elt Ideal)) (x1 : (⟨S2x640000, .i32⟩ : BufTy).Contents (Elt Ideal))
    (x2 : (⟨S640000, .f32⟩ : BufTy).Contents (Elt Ideal))
    (hsrc : ∀ e : Fin 640000, (Cert.Propagate.src x1 e).toNat < 10000) (n : Fin 10000) (d : Fin 128) :
    val_main_v29 (F := Ideal) x0 x1 x2 (ix2 n d)
      = Cert.Propagate.received x0 x1 (fun e => val_main_v16 (F := Ideal) x1 x2 (ix1 e)) n d := by
  rw [segment_sum_read]
  unfold Cert.Propagate.received
  refine Finset.sum_congr rfl (fun e _ => ?_)
  simp only [scatter_index_eq, toInt_eq_iff _ n.val (by have := n.isLt; omega)]
  unfold Cert.Propagate.message
  by_cases hd : Cert.Propagate.dst x1 e = BitVec.ofNat 32 n.val
  · simp only [hd, true_and, if_true]
    rw [Finset.sum_ite_eq' Finset.univ d, if_pos (Finset.mem_univ d), message_eq x0 x1 x2 e d (hsrc e)]
  · simp only [hd, false_and, if_false, Finset.sum_const_zero]

/-! ## The result -/

/-- The reference's result is the propagation step of the specification, with a = the word 0x3F666666 and
    b = the word 0x3DCCCCCD read as extended reals, and the per-edge weight the reference's own stage main_v16. -/
theorem reference_eq (x0 : (⟨S10000x128, .f32⟩ : BufTy).Contents (Elt Ideal)) (x1 : (⟨S2x640000, .i32⟩ : BufTy).Contents (Elt Ideal))
    (x2 : (⟨S640000, .f32⟩ : BufTy).Contents (Elt Ideal))
    (hsrc : ∀ e : Fin 640000, (Cert.Propagate.src x1 e).toNat < 10000) :
    val_main_v34 (F := Ideal) x0 x1 x2
      = Cert.Propagate.result (Ideal.ofBits .f32 0x3F666666#32) (Ideal.ofBits .f32 0x3DCCCCCD#32) x0 x1
          (fun e => val_main_v16 (F := Ideal) x1 x2 (ix1 e)) := by
  funext j
  obtain ⟨n, d, rfl⟩ : ∃ (n : Fin 10000) (d : Fin 128), j = ix2 n d := ⟨j 0, j 1, eq_ix2 j⟩
  rw [Cert.Propagate.result_apply, val_main_v34_apply, val_main_v31_apply, val_main_v33_apply, val_main_v30_apply,
    val_main_cst_5_apply, val_main_v32_apply, val_main_cst_6_apply, segment_sum_eq x0 x1 x2 hsrc n d]
  rfl

end Cert.ReferenceIdeal.RefValue

end
-- ==== Proof.SrcRange.lean ====
/-
  The precondition, read back at one edge: every source word names a node.

  The precondition is a conjunction of three one-bit words: all node features finite, all edge weights finite, and,
  for every edge e, the source word w = edge_index[0, e] tested 0 ≤ w and w < 10000 as signed integers. A conjunction of
  bits that is 1 has every conjunct 1; an "all" over the edges that is 1 is 1 at every edge; and a 32-bit word that is
  nonnegative and below 10000 read signed is below 10000 read unsigned.
-/
import proofs.«114975_j16947940950524_2_alg».proof.Defs
import proofs.«114975_j16947940950524_2_alg».proof.Proof.Gen.Pre_finite_inputs
import proofs.«114975_j16947940950524_2_alg».proof.Proof.Spec
import Idealize.ShloMosaic.Lib.ReduceAll
import Idealize.ShloMosaic.Lib.ValueIdx
import Idealize.ShloMosaic.Lib.Pipeline.Value

noncomputable section

namespace Cert.SrcRange

open Idealize.ShloMosaic Idealize.ShloMosaic.ValueIdx Idealize.ShloMosaic.TcCoe Idealize.SL.Sem
open Cert.Pre_finite_inputs

/-- The scalar shape has one index. -/
instance : Subsingleton S_.Idx := ⟨fun a b => funext fun d => d.elim0⟩

/-- A word in [0, 10000) read signed is below 10000 read unsigned. -/
theorem toNat_lt (w : BitVec 32) (h0 : IntOp.cmpi .sge w 0#32 = 1#1) (h1 : IntOp.cmpi .slt w 10000#32 = 1#1) :
    w.toNat < 10000 := by
  rw [IntOp.cmpi_sge, show (0#32 : BitVec 32).toInt = 0 from by decide] at h0
  rw [IntOp.cmpi_slt, show (10000#32 : BitVec 32).toInt = 10000 from by decide] at h1
  have hc := BitVec.toInt_eq_toNat_cond w
  have hw := w.isLt
  split at hc <;> omega

/-- Row 0 of the edge list, sliced out and flattened, read at edge e: the source word of e. -/
theorem row_at [Facts] (a1 : IVec S2x640000 32) (e : Fin 640000) :
    shapeCast S640000 (extractStridedSlice S1x640000 ![0, 0] a1 Facts.slices_S2x640000_S1x640000_0_0)
      Facts.shapeCasts_S1x640000_S640000 (ix1 e) = Cert.Propagate.src a1 e := by
  rw [shapeCast_apply _ Facts.shapeCasts_S1x640000_S640000 (ix1 e) (ix2 (0 : Fin 1) e)
    (by rw [Shape.rowMajor_val_two, Shape.rowMajor_val_one]; show 0 * 640000 + e.val = e.val; omega)]
  exact extractStridedSlice_apply ![0, 0] a1 Facts.slices_S2x640000_S1x640000_0_0 (ix2 (0 : Fin 1) e) (ix2 (0 : Fin 2) e)
    (fun a => match a with
      | ⟨0, _⟩ => by show (0 : Nat) = 0 + 0; omega
      | ⟨1, _⟩ => by show e.val = 0 + e.val; omega)

/-- THE PRECONDITION DECODED at edge e: the source word is below 10000. -/
theorem src_lt [Facts] (a0 : FVec Ideal S10000x128 .f32) (a1 : IVec S2x640000 32) (a2 : FVec Ideal S640000 .f32)
    (h : Cert.Pre_finite_inputs.fn (F := Ideal) a0 a1 a2 = fun _ => 1#1) :
    ∀ e : Fin 640000, (Cert.Propagate.src a1 e).toNat < 10000 := by
  intro e
  have h0 := congrFun h ix0
  dsimp only [fn, fn_part1] at h0
  obtain ⟨-, hall⟩ := IntOp.andi_eq_one.1 h0
  have he := Host.reduce_andi_all _ _ _ _ _ hall (ix1 e)
  obtain ⟨hge, hlt⟩ := IntOp.andi_eq_one.1 he
  have hge' : IntOp.cmpi .sge (Cert.Propagate.src a1 e) 0#32 = 1#1 := by
    rw [← row_at a1 e]; exact hge
  have hlt' : IntOp.cmpi .slt (Cert.Propagate.src a1 e) 10000#32 = 1#1 := by
    rw [← row_at a1 e]; exact hlt
  exact toNat_lt _ hge' hlt'

/-- The same, in the form the kernel's precondition gives it: on every device, of the edge list in memory. -/
theorem src_lt_of_pre [Facts]
    (m : (ℓ : Loc Cert.KernelIdeal.nD Cert.KernelIdeal.τ Cert.KernelIdeal.sig) → Buf (Elt Ideal) ℓ)
    (h : Cert.Pre_KernelIdeal m) (c : Dev Cert.KernelIdeal.nD) (e : Fin 640000) :
    (Cert.Propagate.src (m ((c.tc : Thread Cert.KernelIdeal.nD Cert.KernelIdeal.τ).loc Cert.KernelIdeal.main_arg1)) e).toNat < 10000 :=
  src_lt _ _ _ (h c) e

end Cert.SrcRange

end
-- ==== Proof.lean ====
/-
  Weighted neighbourhood averaging on a directed graph: the tiled kernel and the plain reference compute one function.

  Both programs first compute the same per-edge weight (the edge's weight over its source's total outgoing weight,
  clamped below at one) by the same operations, so that weight is carried as one function of the inputs and never
  opened. The reference then gathers each edge's source features, scales them, and adds them up by destination. The
  kernel does the same through selection matrices: per block of 1024 edges it gathers the source rows by a product with
  the zero-one matrix of the source words against the node numbers, scales, and scatters by a product with the zero-one
  matrix of the node numbers against the destination words, accumulating over the blocks of each of two cores and adding
  the two cores' sums at the end. On the extended reals a selection entry times a value is the value or nothing, sums may
  be regrouped freely, and a change of float format is the identity, so both are

      0.9 · (∑ over edges e with destination n, x (source e) · weight e) + 0.1 · x n.

  This needs every source word to name a node: for a word outside the node range the reference's indexing wraps and
  clamps while a selection row matches nothing, and the two differ; the precondition says so, and it is the only part of
  the precondition the proof uses. Destination words need no condition: both programs drop what lands outside.

  The three frame claims are the generated frame certificates and the reference's generated run; the ideal pass rewrote
  nothing, so the idealization claim is trivial.
-/
import proofs.«114975_j16947940950524_2_alg».proof.Defs
import proofs.«114975_j16947940950524_2_alg».proof.Proof.Gen.Kernel
import proofs.«114975_j16947940950524_2_alg».proof.Proof.Gen.Kernel.Skeleton
import proofs.«114975_j16947940950524_2_alg».proof.Proof.Gen.Kernel.Loops
import proofs.«114975_j16947940950524_2_alg».proof.Proof.Gen.Kernel.Launch
import proofs.«114975_j16947940950524_2_alg».proof.Proof.Gen.Kernel.Points
import proofs.«114975_j16947940950524_2_alg».proof.Proof.Gen.Kernel.Frame
import proofs.«114975_j16947940950524_2_alg».proof.Proof.Gen.KernelIdeal
import proofs.«114975_j16947940950524_2_alg».proof.Proof.Gen.KernelIdeal.Skeleton
import proofs.«114975_j16947940950524_2_alg».proof.Proof.Gen.KernelIdeal.Loops
import proofs.«114975_j16947940950524_2_alg».proof.Proof.Gen.KernelIdeal.Launch
import proofs.«114975_j16947940950524_2_alg».proof.Proof.Gen.KernelIdeal.Points
import proofs.«114975_j16947940950524_2_alg».proof.Proof.Gen.KernelIdeal.Frame
import proofs.«114975_j16947940950524_2_alg».proof.Proof.Gen.ReferenceIdeal
import proofs.«114975_j16947940950524_2_alg».proof.Proof.Gen.ReferenceIdeal.Run
import proofs.«114975_j16947940950524_2_alg».proof.Proof.Gen.ReferenceIdeal.Read
import proofs.«114975_j16947940950524_2_alg».proof.Proof.Gen.Pre_finite_inputs
import proofs.«114975_j16947940950524_2_alg».proof.Proof.KernelValue
import proofs.«114975_j16947940950524_2_alg».proof.Proof.RefValue
import proofs.«114975_j16947940950524_2_alg».proof.Proof.SrcRange
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Idealize.ShloMosaic.Ideal) m ρ)

theorem preserves : Cert.preserves_Kernel_KernelIdeal := trivial

/-- From memories agreeing on the inputs, with every source word a node, both idealized programs end at the
    specification's result of those inputs: the kernel's program by its value, the reference by its own. -/
theorem algebraic : Cert.algebraic_KernelIdeal_ReferenceIdeal := by
  intro m ρ m' ρ' hpre hagree
  have hsrc : ∀ (c : Dev Cert.KernelIdeal.nD) (e : Fin 640000),
      (Cert.Propagate.src (m ((c.tc : Thread Cert.KernelIdeal.nD Cert.KernelIdeal.τ).loc Cert.KernelIdeal.main_arg1)) e).toNat < 10000 :=
    fun c e => Cert.SrcRange.src_lt_of_pre m hpre c e
  refine ⟨fun c => Cert.Propagate.result (Ideal.ofBits .f32 0x3F666666#32) (Ideal.ofBits .f32 0x3DCCCCCD#32)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (fun e => Cert.ReferenceIdeal.Read.val_main_v16 (F := Idealize.ShloMosaic.Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (ValueIdx.ix1 e)), ?_, ?_⟩
  · refine (θ_run Cert.KernelIdeal.defs _ _).mono (fun _ h c => ⟨(h c).1.trans ?_, (h c).2⟩)
      (Cert.KernelIdeal.KernelValue.run_result m ρ)
    rw [Cert.KernelIdeal.KernelValue.kernel_value m c (hsrc c), Cert.KernelIdeal.KernelValue.norm_eq m c]
  · refine (θ_run Cert.ReferenceIdeal.defs _ _).mono (fun _ h c => ⟨?_, (h c).2⟩)
      (Cert.ReferenceIdeal.Value.run (F := Idealize.ShloMosaic.Ideal) m' ρ')
    rw [(h c).1, Cert.ReferenceIdeal.Read.val_main_v34_eq, (hagree c).1, (hagree c).2.1, (hagree c).2.2]
    exact Cert.ReferenceIdeal.RefValue.reference_eq _ _ _ (hsrc c)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
